-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2000000x2 : Shape := ⟨2, ![2000000, 2]⟩
abbrev S2x3200000 : Shape := ⟨2, ![2, 3200000]⟩
abbrev S4x8 : Shape := ⟨2, ![4, 8]⟩
abbrev S8 : Shape := ⟨1, ![8]⟩
abbrev S8x16 : Shape := ⟨2, ![8, 16]⟩
abbrev S16 : Shape := ⟨1, ![16]⟩
abbrev S4x16 : Shape := ⟨2, ![4, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S4x16 : S_.BroadcastsInDim S4x16 (![] : Fin 0 → Fin S4x16.rank)
  reducesTo_S4x16_S_d0_1 : S4x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x1 .f32) (main_arg15 : FVec F S1 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S16 .f32) (main_arg10 : FVec F S4x16 .f32) (main_arg11 : FVec F S16 .f32) (main_arg12 : FVec F S32x64 .f32) (main_arg13 : FVec F S64 .f32) (main_arg14 : FVec F S64x1 .f32) (main_arg15 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S4x16 .f32 := Host.absf main_arg10
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S32x64 .f32 := Host.absf main_arg12
  let main_cst_18 : FVec F S_ .f32 := constant S_ .f32 0x7F800000#32
  let main_v50 : FVec F S32x64 .f32 := broadcastInDim S32x64 ![] bcast_S_S32x64 main_cst_18
  fn_part3 (F := F) main_arg13 main_arg14 main_arg15 main_v48 main_v49 main_v50

def fn_part1 {F : FTy → Type} [FloatOps F] (main_arg6 : FVec F S8 .f32) (main_arg7 : FVec F S8x16 .f32) (main_arg8 : FVec F S8x16 .f32) (main_arg9 : FVec F S16 .f32) (main_arg10 : FVec F S4x16 .f32) (main_arg11 : FVec F S16 .f32) (main_arg12 : FVec F S32x64 .f32) (main_arg13 : FVec F S64 .f32) (main_arg14 : FVec F S64x1 .f32) (main_arg15 : FVec F S1 .f32) (main_v13 : IVec S_ 1) (main_v16 : IVec S4x8 1) : IVec S_ 1 :=
  let main_c_5 : IVec S_ 1 := constantI S_ 1 1#1
  let main_v17 : IVec S_ 1 := (fun x v => Host.reduce IntOp.andi x v reducesTo_S4x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x16 .f32 := Host.absf main_arg7
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8x16 .f32 := Host.absf main_arg8
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x4 .f32) (main_arg1 : FVec F S100000x4 .f32) (main_arg2 : IVec S2000000x2 32) (main_arg3 : IVec S2x3200000 32) (main_arg4 : FVec F S4x8 .f32) (main_arg5 : FVec F S4x8 .f32) (main_arg6 : FVec F S8 .f32) (main_arg7 : FVec F S8x16 .f32) (main_arg8 : FVec F S8x16 .f32) (main_arg9 : FVec F S16 .f32) (main_arg10 : FVec F S4x16 .f32) (main_arg11 : FVec F S16 .f32) (main_arg12 : FVec F S32x64 .f32) (main_arg13 : FVec F S64 .f32) (main_arg14 : FVec F S64x1 .f32) (main_arg15 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S4x8 .f32 := Host.absf main_arg4
  let main_cst_2 : FVec F S_ .f32 := constant S_ .f32 0x7F800000#32
  let main_v10 : FVec F S4x8 .f32 := broadcastInDim S4x8 ![] bcast_S_S4x8 main_cst_2
  let main_v11 : IVec S4x8 1 := cmpf .olt main_v9 main_v10
  let main_c_3 : IVec S_ 1 := constantI S_ 1 1#1
  let main_v12 : IVec S_ 1 := (fun x v => Host.reduce IntOp.andi x v reducesTo_S4x8_S_d0_1 h_S_) main_v11 main_c_3
  let main_v13 : IVec S_ 1 := andi main_v8 main_v12
  let main_v14 : FVec F S4x8 .f32 := Host.absf main_arg5
  let main_cst_4 : FVec F S_ .f32 := constant S_ .f32 0x7F800000#32
  let main_v15 : FVec F S4x8 .f32 := broadcastInDim S4x8 ![] bcast_S_S4x8 main_cst_4
  let main_v16 : IVec S4x8 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x4 : Shape := ⟨2, ![100000, 4]⟩
abbrev S2000000x2 : Shape := ⟨2, ![2000000, 2]⟩
abbrev S2x3200000 : Shape := ⟨2, ![2, 3200000]⟩
abbrev S4x8 : Shape := ⟨2, ![4, 8]⟩
abbrev S8 : Shape := ⟨1, ![8]⟩
abbrev S8x16 : Shape := ⟨2, ![8, 16]⟩
abbrev S16 : Shape := ⟨1, ![16]⟩
abbrev S4x16 : Shape := ⟨2, ![4, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S100000x8 : Shape := ⟨2, ![100000, 8]⟩
abbrev S4000x4 : Shape := ⟨2, ![4000, 4]⟩
abbrev S4000x8 : Shape := ⟨2, ![4000, 8]⟩
abbrev S1x8 : Shape := ⟨2, ![1, 8]⟩
abbrev S3200000x8 : Shape := ⟨2, ![3200000, 8]⟩
abbrev S100000x16 : Shape := ⟨2, ![100000, 16]⟩
abbrev S4000x16 : Shape := ⟨2, ![4000, 16]⟩
abbrev S1x16 : Shape := ⟨2, ![1, 16]⟩
abbrev S200000x16 : Shape := ⟨2, ![200000, 16]⟩
abbrev S2000000x1 : Shape := ⟨2, ![2000000, 1]⟩
abbrev S2000000 : Shape := ⟨1, ![2000000]⟩
abbrev S2000000x16 : Shape := ⟨2, ![2000000, 16]⟩
abbrev S2000000x32 : Shape := ⟨2, ![2000000, 32]⟩
abbrev S8000x32 : Shape := ⟨2, ![8000, 32]⟩
abbrev S8000x1 : Shape := ⟨2, ![8000, 1]⟩
abbrev S8000x64 : Shape := ⟨2, ![8000, 64]⟩
abbrev S1x64 : Shape := ⟨2, ![1, 64]⟩
abbrev S1x1 : Shape := ⟨2, ![1, 1]⟩

abbrev nBuf : Space → Nat
  | .hbm => 79
  | .vmem => 32
  | .smem => 0
  | _ => 0

abbrev bufTy : (tb : Table) → Fin (tcTables nBuf tb) → BufTy
  | .hbm, ⟨0, _⟩ => ⟨S100000x4, .f32⟩
  | .hbm, ⟨1, _⟩ => ⟨S100000x4, .f32⟩
  | .hbm, ⟨2, _⟩ => ⟨S2000000x2, .i32⟩
  | .hbm, ⟨3, _⟩ => ⟨S2x3200000, .i32⟩
  | .hbm, ⟨4, _⟩ => ⟨S4x8, .f32⟩
  | .hbm, ⟨5, _⟩ => ⟨S4x8, .f32⟩
  | .hbm, ⟨6, _⟩ => ⟨S8, .f32⟩
  | .hbm, ⟨7, _⟩ => ⟨S8x16, .f32⟩
  | .hbm, ⟨8, _⟩ => ⟨S8x16, .f32⟩
  | .hbm, ⟨9, _⟩ => ⟨S16, .f32⟩
  | .hbm, ⟨10, _⟩ => ⟨S4x16, .f32⟩
  | .hbm, ⟨11, _⟩ => ⟨S16, .f32⟩
  | .hbm, ⟨12, _⟩ => ⟨S32x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x4, .f32⟩
  | .hbm, ⟨29, _⟩ => ⟨S_, .f32⟩
  | .hbm, ⟨30, _⟩ => ⟨S100000x4, .f32⟩
  | .hbm, ⟨31, _⟩ => ⟨S3200000x1, .i32⟩
  | .hbm, ⟨32, _⟩ => ⟨S100000x4, .f32⟩
  | .hbm, ⟨33, _⟩ => ⟨S100000x8, .f32⟩
  | .hbm, ⟨34, _⟩ => ⟨S1x3200000, .i32⟩
  | .hbm, ⟨35, _⟩ => ⟨S3200000, .i32⟩
  | .hbm, ⟨36, _⟩ => ⟨S1x3200000, .i32⟩
  | .hbm, ⟨37, _⟩ => ⟨S3200000, .i32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x8, .f32⟩
  | .hbm, ⟨47, _⟩ => ⟨S_, .f32⟩
  | .hbm, ⟨48, _⟩ => ⟨S100000x8, .f32⟩
  | .hbm, ⟨49, _⟩ => ⟨S3200000x1, .i32⟩
  | .hbm, ⟨50, _⟩ => ⟨S100000x8, .f32⟩
  | .hbm, ⟨51, _⟩ => ⟨S100000x16, .f32⟩
  | .hbm, ⟨52, _⟩ => ⟨S100000x16, .f32⟩
  | .hbm, ⟨53, _⟩ => ⟨S200000x16, .f32⟩
  | .hbm, ⟨54, _⟩ => ⟨S2000000x1, .i32⟩
  | .hbm, ⟨55, _⟩ => ⟨S2000000, .i32⟩
  | .hbm, ⟨56, _⟩ => ⟨S2000000x1, .i32⟩
  | .hbm, ⟨57, _⟩ => ⟨S2000000, .i32⟩
  | .hbm, ⟨58, _⟩ => ⟨S_, .i32⟩
  | .hbm, ⟨59, _⟩ => ⟨S2000000, .i32⟩
  | .hbm, ⟨60, _⟩ => ⟨S2000000, .i1⟩
  | .hbm, ⟨61, _⟩ => ⟨S_, .i32⟩
  | .hbm, ⟨62, _⟩ => ⟨S2000000, .i32⟩
  | .hbm, ⟨63, _⟩ => ⟨S2000000, .i32⟩
  | .hbm, ⟨64, _⟩ => ⟨S2000000, .i32⟩
  | .hbm, ⟨65, _⟩ => ⟨S2000000x1, .i32⟩
  | .hbm, ⟨66, _⟩ => ⟨S2000000x16, .f32⟩
  | .hbm, ⟨67, _⟩ => ⟨S_, .i32⟩
  | .hbm, ⟨68, _⟩ => ⟨S2000000, .i32⟩
  | .hbm, ⟨69, _⟩ => ⟨S2000000, .i1⟩
  | .hbm, ⟨70, _⟩ => ⟨S_, .i32⟩
  | .hbm, ⟨71, _⟩ => ⟨S2000000, .i32⟩
  | .hbm, ⟨72, _⟩ => ⟨S2000000, .i32⟩
  | .hbm, ⟨73, _⟩ => ⟨S2000000, .i32⟩
  | .hbm, ⟨74, _⟩ => ⟨S2000000x1, .i32⟩
  | .hbm, ⟨75, _⟩ => ⟨S2000000x16, .f32⟩
  | .hbm, ⟨76, _⟩ => ⟨S2000000x32, .f32⟩
  | .hbm, ⟨77, _⟩ => ⟨S2000000x1, .f32⟩
  | .hbm, ⟨78, _⟩ => ⟨S2000000, .f32⟩
  | .local _ .vmem, ⟨0, _⟩ => ⟨S4000x4, .f32⟩
  | .local _ .vmem, ⟨1, _⟩ => ⟨S4000x4, .f32⟩
  | .local _ .vmem, ⟨2, _⟩ => ⟨S4000x4, .f32⟩
  | .local _ .vmem, ⟨3, _⟩ => ⟨S4000x4, .f32⟩
  | .local _ .vmem, ⟨4, _⟩ => ⟨S4x8, .f32⟩
  | .local _ .vmem, ⟨5, _⟩ => ⟨S4x8, .f32⟩
  | .local _ .vmem, ⟨6, _⟩ => ⟨S8, .f32⟩
  | .local _ .vmem, ⟨7, _⟩ => ⟨S4000x8, .f32⟩
  | .local _ .vmem, ⟨8, _⟩ => ⟨S4000x8, .f32⟩
  | .local _ .vmem, ⟨9, _⟩ => ⟨S4000x8, .f32⟩
  | .local _ .vmem, ⟨10, _⟩ => ⟨S4000x8, .f32⟩
  | .local _ .vmem, ⟨11, _⟩ => ⟨S4000x8, .f32⟩
  | .local _ .vmem, ⟨12, _⟩ => ⟨S4000x8, .f32⟩
  | .local _ .vmem, ⟨13, _⟩ => ⟨S8x16, .f32⟩
  | .local _ .vmem, ⟨14, _⟩ => ⟨S8x16, .f32⟩
  | .local _ .vmem, ⟨15, _⟩ => ⟨S16, .f32⟩
  | .local _ .vmem, ⟨16, _⟩ => ⟨S4000x16, .f32⟩
  | .local _ .vmem, ⟨17, _⟩ => ⟨S4000x16, .f32⟩
  | .local _ .vmem, ⟨18, _⟩ => ⟨S4000x4, .f32⟩
  | .local _ .vmem, ⟨19, _⟩ => ⟨S4000x4, .f32⟩
  | .local _ .vmem, ⟨20, _⟩ => ⟨S4x16, .f32⟩
  | .local _ .vmem, ⟨21, _⟩ => ⟨S16, .f32⟩
  | .local _ .vmem, ⟨22, _⟩ => ⟨S4000x16, .f32⟩
  | .local _ .vmem, ⟨23, _⟩ => ⟨S4000x16, .f32⟩
  | .local _ .vmem, ⟨24, _⟩ => ⟨S8000x32, .f32⟩
  | .local _ .vmem, ⟨25, _⟩ => ⟨S8000x32, .f32⟩
  | .local _ .vmem, ⟨26, _⟩ => ⟨S32x64, .f32⟩
  | .local _ .vmem, ⟨27, _⟩ => ⟨S64, .f32⟩
  | .local _ .vmem, ⟨28, _⟩ => ⟨S64x1, .f32⟩
  | .local _ .vmem, ⟨29, _⟩ => ⟨S1, .f32⟩
  | .local _ .vmem, ⟨30, _⟩ => ⟨S8000x1, .f32⟩
  | .local _ .vmem, ⟨31, _⟩ => ⟨S8000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x4 : S_.BroadcastsInDim S100000x4 (![] : Fin 0 → Fin S100000x4.rank)
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  bitsLt_bf16_f32 : FTy.bits .bf16 < FTy.bits .f32
  inb_S4x8_S4x8_0_0 : ∀ a, (![0, 0] : Fin 2 → Nat) a + S4x8.size a ≤ S4x8.size a
  h_S4x8 : 0 < S4x8.numel
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  bcast_S_S100000x8 : S_.BroadcastsInDim S100000x8 (![] : Fin 0 → Fin S100000x8.rank)
  shapeCasts_S4000x8_S4000x8 : S4000x8.ShapeCasts S4000x8
  inb_S8x16_S8x16_0_0 : ∀ a, (![0, 0] : Fin 2 → Nat) a + S8x16.size a ≤ S8x16.size a
  h_S8x16 : 0 < S8x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  inb_S4x16_S4x16_0_0 : ∀ a, (![0, 0] : Fin 2 → Nat) a + S4x16.size a ≤ S4x16.size a
  h_S4x16 : 0 < S4x16.numel
  concatenates_S100000x16_S100000x16_S200000x16_d0 : Shape.Concatenates [S100000x16, S100000x16] S200000x16 0
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x16_S2000000x16_S2000000x32_d1 : Shape.Concatenates [S2000000x16, S2000000x16] S2000000x32 1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S4000x4_S4x8_S4000x8_1_0_0_1_n_n_wf : DotDims.WF S4000x4 S4x8 S4000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S4000x8_S8x16_S4000x16_1_0_0_1_n_n_wf : DotDims.WF S4000x8 S8x16 S4000x16 [1] [0] [0] [1] [] []
  dot_S4000x4_S4x16_S4000x16_1_0_0_1_n_n_wf : DotDims.WF S4000x4 S4x16 S4000x16 [1] [0] [0] [1] [] []
  gather_S200000x16_S2000000x1_S2000000x16_1_0_n_n_0_1_116_wf : GatherDims.WF S200000x16 S2000000x1 S2000000x16 [1] [0] [] [0] [] 1 ![1, 16]
  dot_S8000x32_S32x64_S8000x64_1_0_0_1_n_n_wf : DotDims.WF S8000x32 S32x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S100000x4.size a
  hwx0_0 : ∀ i : grid0.Coords, EltTy.bits .f32 = 32 ∨ (Rect.block (s := S100000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S100000x4.size a
  hwx0_1 : ∀ i : grid0.Coords, EltTy.bits .f32 = 32 ∨ (Rect.block (s := S100000x4) S4000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8.size a ≤ S4x8.size a
  hwx0_2 : ∀ i : grid0.Coords, EltTy.bits .f32 = 32 ∨ (Rect.block (s := S4x8) S4x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8.size a ≤ S4x8.size a
  hwx0_3 : ∀ i : grid0.Coords, EltTy.bits .f32 = 32 ∨ (Rect.block (s := S4x8) S4x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x8.size a ≤ S100000x8.size a
  hwx0_5 : ∀ i : grid0.Coords, EltTy.bits .f32 = 32 ∨ (Rect.block (s := S100000x8) S4000x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x8.size a ≤ S100000x8.size a
  hwx1_0 : ∀ i : grid1.Coords, EltTy.bits .f32 = 32 ∨ (Rect.block (s := S100000x8) S4000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x8.size a ≤ S100000x8.size a
  hwx1_1 : ∀ i : grid1.Coords, EltTy.bits .f32 = 32 ∨ (Rect.block (s := S100000x8) S4000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x16.size a ≤ S8x16.size a
  hwx1_3 : ∀ i : grid1.Coords, EltTy.bits .f32 = 32 ∨ (Rect.block (s := S8x16) S8x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x4.size a ≤ S100000x4.size a
  hwx2_0 : ∀ i : grid2.Coords, EltTy.bits .f32 = 32 ∨ (Rect.block (s := S100000x4) S4000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x16.size a ≤ S4x16.size a
  hwx2_1 : ∀ i : grid2.Coords, EltTy.bits .f32 = 32 ∨ (Rect.block (s := S4x16) S4x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S100000x16.size a
  hwx2_3 : ∀ i : grid2.Coords, EltTy.bits .f32 = 32 ∨ (Rect.block (s := S100000x16) S4000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S2000000x32.size a
  hwx3_0 : ∀ i : grid3.Coords, EltTy.bits .f32 = 32 ∨ (Rect.block (s := S2000000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x1.size a ≤ S2000000x1.size a
  hwx3_5 : ∀ i : grid3.Coords, EltTy.bits .f32 = 32 ∨ (Rect.block (s := S2000000x1) S8000x1.size (cc3_transform_5 i) (hinb3_5 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S4000x4_S4x8_S4000x8_1_0_0_1_n_n : DotDims S4000x4 S4x8 S4000x8 where
  lhsContracting := [1]
  rhsContracting := [0]
  lhsNonContracting := [0]
  rhsNonContracting := [1]
  lhsBatch := []
  rhsBatch := []
  wf := dot_S4000x4_S4x8_S4000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S4000x8_S8x16_S4000x16_1_0_0_1_n_n : DotDims S4000x8 S8x16 S4000x16 where
  lhsContracting := [1]
  rhsContracting := [0]
  lhsNonContracting := [0]
  rhsNonContracting := [1]
  lhsBatch := []
  rhsBatch := []
  wf := dot_S4000x8_S8x16_S4000x16_1_0_0_1_n_n_wf
def dot_S4000x4_S4x16_S4000x16_1_0_0_1_n_n : DotDims S4000x4 S4x16 S4000x16 where
  lhsContracting := [1]
  rhsContracting := [0]
  lhsNonContracting := [0]
  rhsNonContracting := [1]
  lhsBatch := []
  rhsBatch := []
  wf := dot_S4000x4_S4x16_S4000x16_1_0_0_1_n_n_wf
def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v13) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S4000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S8x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S4000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S4x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S4000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S8000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x4 : Shape := ⟨2, ![100000, 4]⟩
abbrev S2000000x2 : Shape := ⟨2, ![2000000, 2]⟩
abbrev S2x3200000 : Shape := ⟨2, ![2, 3200000]⟩
abbrev S4x8 : Shape := ⟨2, ![4, 8]⟩
abbrev S8 : Shape := ⟨1, ![8]⟩
abbrev S8x16 : Shape := ⟨2, ![8, 16]⟩
abbrev S16 : Shape := ⟨1, ![16]⟩
abbrev S4x16 : Shape := ⟨2, ![4, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S100000x16 : Shape := ⟨2, ![100000, 16]⟩
abbrev S1x16 : Shape := ⟨2, ![1, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S100000x8 : Shape := ⟨2, ![100000, 8]⟩
abbrev S1x8 : Shape := ⟨2, ![1, 8]⟩
abbrev S3200000x8 : Shape := ⟨2, ![3200000, 8]⟩
abbrev S200000x16 : Shape := ⟨2, ![200000, 16]⟩
abbrev S2000000x1 : Shape := ⟨2, ![2000000, 1]⟩
abbrev S2000000 : Shape := ⟨1, ![2000000]⟩
abbrev S2000000x16 : Shape := ⟨2, ![2000000, 16]⟩
abbrev S2000000x32 : Shape := ⟨2, ![2000000, 32]⟩
abbrev S2000000x64 : Shape := ⟨2, ![2000000, 64]⟩
abbrev S1x64 : Shape := ⟨2, ![1, 64]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x4, .f32⟩
  | 1 => ⟨S100000x4, .f32⟩
  | 2 => ⟨S2000000x2, .i32⟩
  | 3 => ⟨S2x3200000, .i32⟩
  | 4 => ⟨S4x8, .f32⟩
  | 5 => ⟨S4x8, .f32⟩
  | 6 => ⟨S8, .f32⟩
  | 7 => ⟨S8x16, .f32⟩
  | 8 => ⟨S8x16, .f32⟩
  | 9 => ⟨S16, .f32⟩
  | 10 => ⟨S4x16, .f32⟩
  | 11 => ⟨S16, .f32⟩
  | 12 => ⟨S32x64, .f32⟩
  | 13 => ⟨S64, .f32⟩
  | 14 => ⟨S64x1, .f32⟩
  | 15 => ⟨S1, .f32⟩
  | 16 => ⟨S100000x16, .f32⟩
  | 17 => ⟨S1x16, .f32⟩
  | 18 => ⟨S100000x16, .f32⟩
  | 19 => ⟨S100000x16, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x4, .f32⟩
  | 33 => ⟨S_, .f32⟩
  | 34 => ⟨S100000x4, .f32⟩
  | 35 => ⟨S3200000x1, .i32⟩
  | 36 => ⟨S100000x4, .f32⟩
  | 37 => ⟨S100000x8, .f32⟩
  | 38 => ⟨S100000x8, .f32⟩
  | 39 => ⟨S100000x8, .f32⟩
  | 40 => ⟨S1x8, .f32⟩
  | 41 => ⟨S100000x8, .f32⟩
  | 42 => ⟨S100000x8, .f32⟩
  | 43 => ⟨S_, .f32⟩
  | 44 => ⟨S_, .f32⟩
  | 45 => ⟨S100000x8, .f32⟩
  | 46 => ⟨S100000x8, .i1⟩
  | 47 => ⟨S_, .f32⟩
  | 48 => ⟨S100000x8, .f32⟩
  | 49 => ⟨S100000x8, .i1⟩
  | 50 => ⟨S_, .f32⟩
  | 51 => ⟨S_, .f32⟩
  | 52 => ⟨S100000x8, .f32⟩
  | 53 => ⟨S100000x8, .f32⟩
  | 54 => ⟨S100000x8, .f32⟩
  | 55 => ⟨S_, .f32⟩
  | 56 => ⟨S100000x8, .f32⟩
  | 57 => ⟨S100000x8, .f32⟩
  | 58 => ⟨S100000x8, .f32⟩
  | 59 => ⟨S_, .f32⟩
  | 60 => ⟨S100000x8, .f32⟩
  | 61 => ⟨S100000x8, .f32⟩
  | 62 => ⟨S1x3200000, .i32⟩
  | 63 => ⟨S3200000, .i32⟩
  | 64 => ⟨S1x3200000, .i32⟩
  | 65 => ⟨S3200000, .i32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x8, .f32⟩
  | 75 => ⟨S_, .f32⟩
  | 76 => ⟨S100000x8, .f32⟩
  | 77 => ⟨S3200000x1, .i32⟩
  | 78 => ⟨S100000x8, .f32⟩
  | 79 => ⟨S100000x16, .f32⟩
  | 80 => ⟨S100000x16, .f32⟩
  | 81 => ⟨S100000x16, .f32⟩
  | 82 => ⟨S1x16, .f32⟩
  | 83 => ⟨S100000x16, .f32⟩
  | 84 => ⟨S100000x16, .f32⟩
  | 85 => ⟨S_, .f32⟩
  | 86 => ⟨S_, .f32⟩
  | 87 => ⟨S100000x16, .f32⟩
  | 88 => ⟨S100000x16, .i1⟩
  | 89 => ⟨S_, .f32⟩
  | 90 => ⟨S100000x16, .f32⟩
  | 91 => ⟨S100000x16, .i1⟩
  | 92 => ⟨S_, .f32⟩
  | 93 => ⟨S_, .f32⟩
  | 94 => ⟨S100000x16, .f32⟩
  | 95 => ⟨S100000x16, .f32⟩
  | 96 => ⟨S100000x16, .f32⟩
  | 97 => ⟨S_, .f32⟩
  | 98 => ⟨S100000x16, .f32⟩
  | 99 => ⟨S100000x16, .f32⟩
  | 100 => ⟨S100000x16, .f32⟩
  | 101 => ⟨S_, .f32⟩
  | 102 => ⟨S100000x16, .f32⟩
  | 103 => ⟨S100000x16, .f32⟩
  | 104 => ⟨S200000x16, .f32⟩
  | 105 => ⟨S2000000x1, .i32⟩
  | 106 => ⟨S2000000, .i32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000x16, .f32⟩
  | 116 => ⟨S2000000x1, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x16, .f32⟩
  | 127 => ⟨S2000000x32, .f32⟩
  | _ => ⟨S100000x4, .f32⟩

abbrev hbmTy0_1 (i : Nat) : BufTy := match i % 128 with
  | 0 => ⟨S2000000x64, .f32⟩
  | 1 => ⟨S1x64, .f32⟩
  | 2 => ⟨S2000000x64, .f32⟩
  | 3 => ⟨S2000000x64, .f32⟩
  | 4 => ⟨S_, .f32⟩
  | 5 => ⟨S_, .f32⟩
  | 6 => ⟨S2000000x64, .f32⟩
  | 7 => ⟨S2000000x64, .i1⟩
  | 8 => ⟨S_, .f32⟩
  | 9 => ⟨S2000000x64, .f32⟩
  | 10 => ⟨S2000000x64, .i1⟩
  | 11 => ⟨S_, .f32⟩
  | 12 => ⟨S_, .f32⟩
  | 13 => ⟨S2000000x64, .f32⟩
  | 14 => ⟨S2000000x64, .f32⟩
  | 15 => ⟨S2000000x64, .f32⟩
  | 16 => ⟨S_, .f32⟩
  | 17 => ⟨S2000000x64, .f32⟩
  | 18 => ⟨S2000000x64, .f32⟩
  | 19 => ⟨S2000000x64, .f32⟩
  | 20 => ⟨S_, .f32⟩
  | 21 => ⟨S2000000x64, .f32⟩
  | 22 => ⟨S2000000x64, .f32⟩
  | 23 => ⟨S2000000x1, .f32⟩
  | 24 => ⟨S1x1, .f32⟩
  | 25 => ⟨S2000000x1, .f32⟩
  | 26 => ⟨S2000000x1, .f32⟩
  | 27 => ⟨S2000000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_cst_0 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_cst_1 : Ref sig .tc := ⟨.hbm, 50, rfl⟩
abbrev main_call0_call0_call0_v0 : Ref sig .tc := ⟨.hbm, 51, rfl⟩
abbrev main_call0_call0_call0_v1 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_1 : Ref sig .tc := ⟨.hbm, 66, rfl⟩
abbrev main_v29 : Ref sig .tc := ⟨.hbm, 67, rfl⟩
abbrev main_v30 : Ref sig .tc := ⟨.hbm, 68, rfl⟩
abbrev main_c_2 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_3 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call1_cst : Ref sig .tc := ⟨.hbm, 85, rfl⟩
abbrev main_call1_call0_cst : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_call0_cst_0 : Ref sig .tc := ⟨.hbm, 89, rfl⟩
abbrev main_call1_call0_v2 : Ref sig .tc := ⟨.hbm, 90, rfl⟩
abbrev main_call1_call0_v3 : Ref sig .tc := ⟨.hbm, 91, rfl⟩
abbrev main_call1_call0_cst_1 : Ref sig .tc := ⟨.hbm, 92, rfl⟩
abbrev main_call1_call0_call0_v0 : Ref sig .tc := ⟨.hbm, 93, rfl⟩
abbrev main_call1_call0_call0_v1 : Ref sig .tc := ⟨.hbm, 94, rfl⟩
abbrev main_call1_call0_v4 : Ref sig .tc := ⟨.hbm, 95, rfl⟩
abbrev main_call1_call0_v5 : Ref sig .tc := ⟨.hbm, 96, rfl⟩
abbrev main_call1_call0_v6 : Ref sig .tc := ⟨.hbm, 97, rfl⟩
abbrev main_call1_call0_v7 : Ref sig .tc := ⟨.hbm, 98, rfl⟩
abbrev main_call1_call0_v8 : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_c_4 : Ref sig .tc := ⟨.hbm, 107, rfl⟩
abbrev main_v49 : Ref sig .tc := ⟨.hbm, 108, rfl⟩
abbrev main_v50 : Ref sig .tc := ⟨.hbm, 109, rfl⟩
abbrev main_c_5 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_c_6 : Ref sig .tc := ⟨.hbm, 118, rfl⟩
abbrev main_v58 : Ref sig .tc := ⟨.hbm, 119, rfl⟩
abbrev main_v59 : Ref sig .tc := ⟨.hbm, 120, rfl⟩
abbrev main_c_7 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_call2_cst : Ref sig .tc := ⟨.hbm, 132, rfl⟩
abbrev main_call2_call0_cst : Ref sig .tc := ⟨.hbm, 133, rfl⟩
abbrev main_call2_call0_v0 : Ref sig .tc := ⟨.hbm, 134, rfl⟩
abbrev main_call2_call0_v1 : Ref sig .tc := ⟨.hbm, 135, rfl⟩
abbrev main_call2_call0_cst_0 : Ref sig .tc := ⟨.hbm, 136, rfl⟩
abbrev main_call2_call0_v2 : Ref sig .tc := ⟨.hbm, 137, rfl⟩
abbrev main_call2_call0_v3 : Ref sig .tc := ⟨.hbm, 138, rfl⟩
abbrev main_call2_call0_cst_1 : Ref sig .tc := ⟨.hbm, 139, rfl⟩
abbrev main_call2_call0_call0_v0 : Ref sig .tc := ⟨.hbm, 140, rfl⟩
abbrev main_call2_call0_call0_v1 : Ref sig .tc := ⟨.hbm, 141, rfl⟩
abbrev main_call2_call0_v4 : Ref sig .tc := ⟨.hbm, 142, rfl⟩
abbrev main_call2_call0_v5 : Ref sig .tc := ⟨.hbm, 143, rfl⟩
abbrev main_call2_call0_v6 : Ref sig .tc := ⟨.hbm, 144, rfl⟩
abbrev main_call2_call0_v7 : Ref sig .tc := ⟨.hbm, 145, rfl⟩
abbrev main_call2_call0_v8 : Ref sig .tc := ⟨.hbm, 146, rfl⟩
abbrev main_call2_v0 : Ref sig .tc := ⟨.hbm, 147, rfl⟩
abbrev main_call2_cst_0 : Ref sig .tc := ⟨.hbm, 148, rfl⟩
abbrev main_call2_v1 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x4 : S_.BroadcastsInDim S100000x4 (![] : Fin 0 → Fin S100000x4.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S_S100000x16 : S_.BroadcastsInDim S100000x16 (![] : Fin 0 → Fin S100000x16.rank)
  concatenates_S100000x16_S100000x16_S200000x16_d0 : Shape.Concatenates [S100000x16, S100000x16] S200000x16 0
  slices_S2000000x2_S2000000x1_0_0 : S2000000x2.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x2_S2000000x1_0_1 : S2000000x2.Slices ![0, 1] S2000000x1
  concatenates_S2000000x16_S2000000x16_S2000000x32_d1 : Shape.Concatenates [S2000000x16, S2000000x16] S2000000x32 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  dot_S100000x4_S4x16_S100000x16_1_0_0_1_n_n_wf : DotDims.WF S100000x4 S4x16 S100000x16 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x8_S100000x8_1_0_0_1_n_n_wf : DotDims.WF S100000x4 S4x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x16_S100000x16_1_0_0_1_n_n_wf : DotDims.WF S100000x8 S8x16 S100000x16 [1] [0] [0] [1] [] []
  gather_S200000x16_S2000000x1_S2000000x16_1_0_n_n_0_1_116_wf : GatherDims.WF S200000x16 S2000000x1 S2000000x16 [1] [0] [] [0] [] 1 ![1, 16]
  dot_S2000000x32_S32x64_S2000000x64_1_0_0_1_n_n_wf : DotDims.WF S2000000x32 S32x64 S2000000x64 [1] [0] [0] [1] [] []
  dot_S2000000x64_S64x1_S2000000x1_1_0_0_1_n_n_wf : DotDims.WF S2000000x64 S64x1 S2000000x1 [1] [0] [0] [1] [] []

variable [Facts₀]

def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x8_S100000x8_1_0_0_1_n_n : DotDims S100000x4 S4x8 S100000x8 where
  lhsContracting := [1]
  rhsContracting := [0]
  lhsNonContracting := [0]
  rhsNonContracting := [1]
  lhsBatch := []
  rhsBatch := []
  wf := dot_S100000x4_S4x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def dot_S2000000x32_S32x64_S2000000x64_1_0_0_1_n_n : DotDims S2000000x32 S32x64 S2000000x64 where
  lhsContracting := [1]
  rhsContracting := [0]
  lhsNonContracting := [0]
  rhsNonContracting := [1]
  lhsBatch := []
  rhsBatch := []
  wf := dot_S2000000x32_S32x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf

class Facts : Prop extends Facts₀ where

variable [Facts]
-- ==== Proof.KernelRun.lean ====
/-
  The idealized kernel's run, with every buffer's final contents named.

  @main is eight segments: stretches of host operations and the four kernel launches between them. Running them in
  order from the launch memory `m` folds the buffer contents forward: a stretch of host operations leaves each result
  at its operation applied to what the stretch found; a launch leaves each window's array at what its write-backs
  leave and everything else alone. `GenP.W8 m ρ c` is that fold after the last segment, on core `c`.

  `run_all` says that every weakly fair execution of @main terminates, without a fault, in a memory whose every
  unscoped buffer holds exactly `GenP.W8 m ρ c` of it: the launch theorem for a program of several regions, applied to
  this program's segments, with the final thread state read against the final memory. `run_value` keeps of that the
  result buffer and the sixteen argument arrays, the latter read back through the fold to their launch contents.
-/
import proofs.«170866_j29832842838651_2_alg».proof.Proof.PatchedFrameKernelIdeal

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of core `c` at the
    fold's final contents `GenP.W8 m ρ c`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run, keeping the result buffer — at the fold's final contents of it — and the sixteen argument arrays, which no
    host operation and no launch writes. -/
theorem run_value : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v52 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩) (run_all m ρ)

end Cert.KernelIdeal.RunValue

end
-- ==== Proof.Spec.lean ====
/-
  What both programs compute, as one function of the sixteen argument arrays on the extended reals.

  A graph convolution layer sends a node's aggregated neighbour features `agg` and its own features `x` to
  `selu (agg · W_rel + x · W_root + b)`, row by row; the unconnected nodes pass through one affine layer
  `x · W + b`; a candidate edge's two 16-wide node rows, laid side by side, pass through the perceptron
  `selu (ec · W₁ + b₁) · W₂ + b₂`. Each dense stage is written here entry by entry as the textbook sums.

  Between the dense stages both programs apply the same data movement — gathering source rows and summing them
  into destination rows along the edge list, stacking the two node tables and gathering a candidate's two rows,
  dropping the unit axis of the result. None of it is arithmetic on the values the dense stages differ in, so it
  enters as four functions, `Glue`, that are never opened: the result is `out g` of the arguments for whichever
  spelling `g` of those four functions a program carries.

  `selu y = s · (y if 0 < y, else a · (eʸ − 1))` with the two single-precision literals `s` and `a` both programs
  share, kept as their words.
-/
import Idealize.ShloMosaic.PureOps.Ideal
import Idealize.ShloMosaic.Lib.ValueIdx

noncomputable section

namespace Gnn

open Idealize.ShloMosaic Idealize.ShloMosaic.ValueIdx

/-- An `a × b` matrix of extended reals. -/
abbrev Mat (a b : ℕ) : Type := (⟨2, ![a, b]⟩ : Shape).Idx → EReal
/-- A length-`b` vector of extended reals. -/
abbrev Row (b : ℕ) : Type := (⟨1, ![b]⟩ : Shape).Idx → EReal
/-- An `a × b` matrix of 32-bit integers (node indices). -/
abbrev IMat (a b : ℕ) : Type := (⟨2, ![a, b]⟩ : Shape).Idx → BitVec 32

/-- The scaled exponential linear unit: `s · y` for positive `y`, `s · a · (eʸ − 1)` otherwise. -/
def selu (y : EReal) : EReal :=
  Ideal.ofBits .f32 0x3F867D5F#32 * (if 0 < y then y else Ideal.ofBits .f32 0x3FD62D7D#32 * (Ideal.exp y - 1))

variable {n k d h : ℕ}

/-- Entry `(p, q)` of `x · w`. -/
def dotAt (x : Mat n k) (w : Mat k d) (p : Fin n) (q : Fin d) : EReal := ∑ j : Fin k, x (ix2 p j) * w (ix2 j q)

/-- Entry `(p, q)` of the affine layer `x · w + b`. -/
def affineAt (x : Mat n k) (w : Mat k d) (b : Row d) (p : Fin n) (q : Fin d) : EReal := dotAt x w p q + b (ix1 q)

/-- Entry `(p, q)` of a graph convolution layer: `selu (agg · w_rel + x · w_root + b)`. -/
def convAt (agg x : Mat n k) (wrel wroot : Mat k d) (b : Row d) (p : Fin n) (q : Fin d) : EReal :=
  selu (dotAt agg wrel p q + dotAt x wroot p q + b (ix1 q))

/-- Entry `(p, q)` of the perceptron `selu (ec · w₁ + b₁) · w₂ + b₂`. -/
def mlpAt (ec : Mat n k) (w1 : Mat k h) (b1 : Row h) (w2 : Mat h d) (b2 : Row d) (p : Fin n) (q : Fin d) : EReal :=
  (∑ j : Fin h, selu (affineAt ec w1 b1 p j) * w2 (ix2 j q)) + b2 (ix1 q)

/-- The affine layer as a matrix. -/
def affine (x : Mat n k) (w : Mat k d) (b : Row d) : Mat n d := fun i => affineAt x w b (i 0) (i 1)
/-- The graph convolution layer as a matrix. -/
def conv (agg x : Mat n k) (wrel wroot : Mat k d) (b : Row d) : Mat n d := fun i => convAt agg x wrel wroot b (i 0) (i 1)
/-- The perceptron as a matrix. -/
def mlp (ec : Mat n k) (w1 : Mat k h) (b1 : Row h) (w2 : Mat h d) (b2 : Row d) : Mat n d := fun i => mlpAt ec w1 b1 w2 b2 (i 0) (i 1)

theorem affine_ix2 (x : Mat n k) (w : Mat k d) (b : Row d) (p : Fin n) (q : Fin d) :
    affine x w b (ix2 p q) = affineAt x w b p q := rfl
theorem conv_ix2 (agg x : Mat n k) (wrel wroot : Mat k d) (b : Row d) (p : Fin n) (q : Fin d) :
    conv agg x wrel wroot b (ix2 p q) = convAt agg x wrel wroot b p q := rfl
theorem mlp_ix2 (ec : Mat n k) (w1 : Mat k h) (b1 : Row h) (w2 : Mat h d) (b2 : Row d) (p : Fin n) (q : Fin d) :
    mlp ec w1 b1 w2 b2 (ix2 p q) = mlpAt ec w1 b1 w2 b2 p q := rfl

/-- The data movement both programs share, as four functions that are never opened: summing gathered source rows
    into destination rows along the edge list (at feature widths 4 and 8), stacking the two node tables and laying a
    candidate's two gathered rows side by side, and dropping the result's unit axis. -/
structure Glue where
  agg4 : Mat 100000 4 → IMat 2 3200000 → Mat 100000 4
  agg8 : Mat 100000 8 → IMat 2 3200000 → Mat 100000 8
  pair : Mat 100000 16 → Mat 100000 16 → IMat 2000000 2 → Mat 2000000 32
  flat : Mat 2000000 1 → Row 2000000

/-- The edge scores: two graph convolution layers over the connected nodes, one affine layer over the unconnected
    ones, and the perceptron over each candidate's pair of node rows. -/
def out (g : Glue) (x_u x_g : Mat 100000 4) (cand : IMat 2000000 2) (edges : IMat 2 3200000)
    (w1rel w1root : Mat 4 8) (b1 : Row 8) (w2rel w2root : Mat 8 16) (b2 : Row 16) (wun : Mat 4 16) (bun : Row 16)
    (wfc1 : Mat 32 64) (bfc1 : Row 64) (wfc2 : Mat 64 1) (bfc2 : Row 1) : Row 2000000 :=
  let hid : Mat 100000 8 := conv (g.agg4 x_g edges) x_g w1rel w1root b1
  let xg : Mat 100000 16 := conv (g.agg8 hid edges) hid w2rel w2root b2
  let xu : Mat 100000 16 := affine x_u wun bun
  g.flat (mlp (g.pair xg xu cand) wfc1 bfc1 wfc2 bfc2)

end Gnn

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«170866_j29832842838651_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.KernelDense.lean ====
/-
  What each kernel body stores, entry by entry, on the extended reals.

  A body loads its row block and the small weight and bias arrays whole, multiplies (a change of float format is the
  identity here, and the matrix unit accumulating into zero is the plain contraction `∑ j, x (p, j) * w (j, q)`), adds the
  bias row repeated down the block, and — in the two graph convolution bodies and in the perceptron's hidden layer —
  applies the scaled exponential linear unit, spelt `s · select (y > 0) y (a · (eʸ − 1))` with the literal `1`. The
  comparison is the order's, the selection picks `y` exactly when `0 < y`, and the word `0x3F800000` is the real one, so
  that spelling is `Gnn.selu y` at every extended real `y`. Hence the stored value at `(p, q)` is the specification's
  entry `Gnn.convAt` / `Gnn.affineAt` / `Gnn.mlpAt` of the loaded blocks.
-/
import proofs.«170866_j29832842838651_2_alg».proof.Proof.Gen.KernelIdeal.Skeleton
import proofs.«170866_j29832842838651_2_alg».proof.Proof.Spec
import proofs.«170866_j29832842838651_2_alg».proof.Proof.LibPlainDot
import proofs.«170866_j29832842838651_2_alg».proof.Proof.LibTileOps
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.Dense

open Idealize.ShloMosaic Idealize.ShloMosaic.ValueIdx Cert.KernelIdeal Cert.KernelIdeal.Gen

/-- The kernels' spelling of the unit — the order's comparison with the zero word, a selection on it, `eʸ` minus the
    word of one — is `Gnn.selu` at every extended real. -/
theorem selu_spelt (y : EReal) :
    Ideal.ofBits .f32 0x3F867D5F#32
        * Scalar.select (Ideal.cmp .ogt y (Ideal.ofBits .f32 0x00000000#32)) y
            (Ideal.ofBits .f32 0x3FD62D7D#32 * (Ideal.exp y - Ideal.ofBits .f32 0x3F800000#32))
      = Gnn.selu y := by
  rw [Ideal.ofBits_zero_f32, Ideal.ofBits_one_f32]
  unfold Gnn.selu Ideal.cmp Scalar.select
  by_cases h : (0 : EReal) < y <;> simp [h]

/-- The exponential of a vector, read at an index. -/
theorem exp_at {s : Shape} {φ : FTy} (x : FVec Ideal s φ) (i : s.Idx) : exp x i = Ideal.exp (x i) := rfl

/-- The first graph convolution body's stored value at `(p, q)`. -/
theorem k0_pay1_apply (v0 v3 : Vec Ideal S4000x4 .f32) (v5 v7 : Vec Ideal S4x8 .f32) (v9 : Vec Ideal S8 .f32)
    (p : Fin 4000) (q : Fin 8) :
    k0_pay1 (F := Ideal) v0 v3 v5 v7 v9 (ix2 p q) = Gnn.convAt v0 v3 v5 v7 v9 p q := by
  have e1 : matmul (F := Ideal) dot_S4000x4_S4x8_S4000x8_1_0_0_1_n_n none
        (truncf .bf16 (shapeCast S4000x4 v0 shapeCasts_S4000x4_S4000x4) bitsLt_bf16_f32) (truncf .bf16 v5 bitsLt_bf16_f32)
        (constant S4000x8 .f32 0x00000000#32) (ix2 p q) = Gnn.dotAt v0 v5 p q := by
    rw [shapeCast_self]
    exact Gcn.Lib.plain_matmul_zero_apply (M := 4000) (K := 4) (N := 8) v0 v5 none p q
  have e2 : matmul (F := Ideal) dot_S4000x4_S4x8_S4000x8_1_0_0_1_n_n none
        (truncf .bf16 v3 bitsLt_bf16_f32) (truncf .bf16 v7 bitsLt_bf16_f32)
        (constant S4000x8 .f32 0x00000000#32) (ix2 p q) = Gnn.dotAt v3 v7 p q :=
    Gcn.Lib.plain_matmul_zero_apply (M := 4000) (K := 4) (N := 8) v3 v7 none p q
  have e3 : broadcastTo S4000x8 (shapeCast S1x8 v9 shapeCasts_S8_S1x8) broadcasts_S1x8_S4000x8 (ix2 p q) = v9 (ix1 q) :=
    Hmu.Lib.rowVec_apply (a := 4000) (b := 8) v9 shapeCasts_S8_S1x8 broadcasts_S1x8_S4000x8 p q
  unfold k0_pay1 Gnn.convAt
  simp only [mulf_apply, select_apply, cmpf_apply, broadcast_apply, addf_apply, subf_apply, exp_at]
  rw [e1, e2, e3]
  exact selu_spelt _

/-- The second graph convolution body's stored value at `(p, q)`. -/
theorem k1_pay1_apply (v0 v3 : Vec Ideal S4000x8 .f32) (v6 v8 : Vec Ideal S8x16 .f32) (v10 : Vec Ideal S16 .f32)
    (p : Fin 4000) (q : Fin 16) :
    k1_pay1 (F := Ideal) v0 v3 v6 v8 v10 (ix2 p q) = Gnn.convAt v0 v3 v6 v8 v10 p q := by
  have e1 : matmul (F := Ideal) dot_S4000x8_S8x16_S4000x16_1_0_0_1_n_n none
        (truncf .bf16 (shapeCast S4000x8 v0 shapeCasts_S4000x8_S4000x8) bitsLt_bf16_f32) (truncf .bf16 v6 bitsLt_bf16_f32)
        (constant S4000x16 .f32 0x00000000#32) (ix2 p q) = Gnn.dotAt v0 v6 p q := by
    rw [shapeCast_self]
    exact Gcn.Lib.plain_matmul_zero_apply (M := 4000) (K := 8) (N := 16) v0 v6 none p q
  have e2 : matmul (F := Ideal) dot_S4000x8_S8x16_S4000x16_1_0_0_1_n_n none
        (truncf .bf16 (shapeCast S4000x8 v3 shapeCasts_S4000x8_S4000x8) bitsLt_bf16_f32) (truncf .bf16 v8 bitsLt_bf16_f32)
        (constant S4000x16 .f32 0x00000000#32) (ix2 p q) = Gnn.dotAt v3 v8 p q := by
    rw [shapeCast_self]
    exact Gcn.Lib.plain_matmul_zero_apply (M := 4000) (K := 8) (N := 16) v3 v8 none p q
  have e3 : broadcastTo S4000x16 (shapeCast S1x16 v10 shapeCasts_S16_S1x16) broadcasts_S1x16_S4000x16 (ix2 p q) = v10 (ix1 q) :=
    Hmu.Lib.rowVec_apply (a := 4000) (b := 16) v10 shapeCasts_S16_S1x16 broadcasts_S1x16_S4000x16 p q
  unfold k1_pay1 Gnn.convAt
  simp only [mulf_apply, select_apply, cmpf_apply, broadcast_apply, addf_apply, subf_apply, exp_at]
  rw [e1, e2, e3]
  exact selu_spelt _

/-- The linear body's stored value at `(p, q)`. -/
theorem k2_pay1_apply (v0 : Vec Ideal S4000x4 .f32) (v2 : Vec Ideal S4x16 .f32) (v4 : Vec Ideal S16 .f32)
    (p : Fin 4000) (q : Fin 16) :
    k2_pay1 (F := Ideal) v0 v2 v4 (ix2 p q) = Gnn.affineAt v0 v2 v4 p q := by
  have e1 : matmul (F := Ideal) dot_S4000x4_S4x16_S4000x16_1_0_0_1_n_n none
        (truncf .bf16 v0 bitsLt_bf16_f32) (truncf .bf16 v2 bitsLt_bf16_f32)
        (constant S4000x16 .f32 0x00000000#32) (ix2 p q) = Gnn.dotAt v0 v2 p q :=
    Gcn.Lib.plain_matmul_zero_apply (M := 4000) (K := 4) (N := 16) v0 v2 none p q
  have e3 : broadcastTo S4000x16 (shapeCast S1x16 v4 shapeCasts_S16_S1x16) broadcasts_S1x16_S4000x16 (ix2 p q) = v4 (ix1 q) :=
    Hmu.Lib.rowVec_apply (a := 4000) (b := 16) v4 shapeCasts_S16_S1x16 broadcasts_S1x16_S4000x16 p q
  unfold k2_pay1 Gnn.affineAt
  simp only [addf_apply]
  rw [e1, e3]

/-- The perceptron body's stored value at `(p, q)`: the hidden layer's row `p` — `Gnn.selu` of the first affine layer, entry
    by entry — contracted with the second weight column, plus the second bias. -/
theorem k3_pay1_apply (v0 : Vec Ideal S8000x32 .f32) (v3 : Vec Ideal S32x64 .f32) (v5 : Vec Ideal S64 .f32)
    (v21 : Vec Ideal S64x1 .f32) (v23 : Vec Ideal S1 .f32) (p : Fin 8000) (q : Fin 1) :
    k3_pay1 (F := Ideal) v0 v3 v5 v21 v23 (ix2 p q) = Gnn.mlpAt v0 v3 v5 v21 v23 p q := by
  have e1 : ∀ u : Fin 64, matmul (F := Ideal) dot_S8000x32_S32x64_S8000x64_1_0_0_1_n_n none
        (truncf .bf16 (shapeCast S8000x32 v0 shapeCasts_S8000x32_S8000x32) bitsLt_bf16_f32) (truncf .bf16 v3 bitsLt_bf16_f32)
        (constant S8000x64 .f32 0x00000000#32) (ix2 p u) = Gnn.dotAt v0 v3 p u := by
    intro u
    rw [shapeCast_self]
    exact Gcn.Lib.plain_matmul_zero_apply (M := 8000) (K := 32) (N := 64) v0 v3 none p u
  have e2 : ∀ u : Fin 64, broadcastTo S8000x64 (shapeCast S1x64 v5 shapeCasts_S64_S1x64) broadcasts_S1x64_S8000x64 (ix2 p u) = v5 (ix1 u) :=
    fun u => Hmu.Lib.rowVec_apply (a := 8000) (b := 64) v5 shapeCasts_S64_S1x64 broadcasts_S1x64_S8000x64 p u
  have e3 : broadcastTo S8000x1 (shapeCast S1x1 v23 shapeCasts_S1_S1x1) broadcasts_S1x1_S8000x1 (ix2 p q) = v23 (ix1 q) :=
    Hmu.Lib.rowVec_apply (a := 8000) (b := 1) v23 shapeCasts_S1_S1x1 broadcasts_S1x1_S8000x1 p q
  unfold k3_pay1 Gnn.mlpAt
  simp only [addf_apply]
  rw [e3]
  refine congrArg (· + v23 (ix1 q)) ?_
  refine (Gcn.Lib.plain_matmul_zero_apply (M := 8000) (K := 64) (N := 1) _ _ none p q).trans ?_
  refine Finset.sum_congr rfl fun u _ => ?_
  simp only [truncf_apply, mulf_apply, select_apply, cmpf_apply, broadcast_apply, addf_apply, subf_apply, exp_at]
  rw [e1 u, e2 u]
  unfold Gnn.affineAt
  exact congrArg (· * v21 (ix2 u q)) (selu_spelt _)

end Cert.KernelIdeal.Dense

end
-- ==== Proof.SpecCongr.lean ====
/-
  The dense stages depend only on the rows and columns they read.

  An entry of the affine layer, of the graph convolution layer or of the perceptron reads one row of each data matrix, one
  column of the last weight matrix, one entry of the last bias — and, in the perceptron, the whole first weight matrix and
  bias. Two entries computed from arrays that agree on what is read are equal, whatever else the arrays hold and whatever
  their other extents. This is what lets a row block of an array stand for the array.
-/
import proofs.«170866_j29832842838651_2_alg».proof.Proof.Spec

noncomputable section

namespace Gnn

open Idealize.ShloMosaic Idealize.ShloMosaic.ValueIdx

variable {n n' k d d' h : ℕ}

theorem dotAt_congr (x : Mat n k) (w : Mat k d) (x' : Mat n' k) (w' : Mat k d') (p : Fin n) (q : Fin d) (p' : Fin n') (q' : Fin d')
    (hx : ∀ j : Fin k, x (ix2 p j) = x' (ix2 p' j)) (hw : ∀ j : Fin k, w (ix2 j q) = w' (ix2 j q')) :
    dotAt x w p q = dotAt x' w' p' q' := by
  unfold dotAt
  exact Finset.sum_congr rfl fun j _ => by rw [hx j, hw j]

theorem affineAt_congr (x : Mat n k) (w : Mat k d) (b : Row d) (x' : Mat n' k) (w' : Mat k d') (b' : Row d')
    (p : Fin n) (q : Fin d) (p' : Fin n') (q' : Fin d')
    (hx : ∀ j : Fin k, x (ix2 p j) = x' (ix2 p' j)) (hw : ∀ j : Fin k, w (ix2 j q) = w' (ix2 j q'))
    (hb : b (ix1 q) = b' (ix1 q')) :
    affineAt x w b p q = affineAt x' w' b' p' q' := by
  unfold affineAt
  rw [dotAt_congr x w x' w' p q p' q' hx hw, hb]

theorem convAt_congr (agg x : Mat n k) (wrel wroot : Mat k d) (b : Row d) (agg' x' : Mat n' k) (wrel' wroot' : Mat k d') (b' : Row d')
    (p : Fin n) (q : Fin d) (p' : Fin n') (q' : Fin d')
    (hagg : ∀ j : Fin k, agg (ix2 p j) = agg' (ix2 p' j)) (hx : ∀ j : Fin k, x (ix2 p j) = x' (ix2 p' j))
    (hrel : ∀ j : Fin k, wrel (ix2 j q) = wrel' (ix2 j q')) (hroot : ∀ j : Fin k, wroot (ix2 j q) = wroot' (ix2 j q'))
    (hb : b (ix1 q) = b' (ix1 q')) :
    convAt agg x wrel wroot b p q = convAt agg' x' wrel' wroot' b' p' q' := by
  unfold convAt
  rw [dotAt_congr agg wrel agg' wrel' p q p' q' hagg hrel, dotAt_congr x wroot x' wroot' p q p' q' hx hroot, hb]

theorem mlpAt_congr (ec : Mat n k) (w1 : Mat k h) (b1 : Row h) (w2 : Mat h d) (b2 : Row d)
    (ec' : Mat n' k) (w1' : Mat k h) (b1' : Row h) (w2' : Mat h d') (b2' : Row d')
    (p : Fin n) (q : Fin d) (p' : Fin n') (q' : Fin d')
    (hec : ∀ j : Fin k, ec (ix2 p j) = ec' (ix2 p' j)) (hw1 : ∀ (j : Fin k) (u : Fin h), w1 (ix2 j u) = w1' (ix2 j u))
    (hb1 : ∀ u : Fin h, b1 (ix1 u) = b1' (ix1 u)) (hw2 : ∀ u : Fin h, w2 (ix2 u q) = w2' (ix2 u q'))
    (hb2 : b2 (ix1 q) = b2' (ix1 q')) :
    mlpAt ec w1 b1 w2 b2 p q = mlpAt ec' w1' b1' w2' b2' p' q' := by
  unfold mlpAt
  rw [hb2]
  refine congrArg (· + b2' (ix1 q')) (Finset.sum_congr rfl fun u _ => ?_)
  rw [affineAt_congr ec w1 b1 ec' w1' b1' p u p' u hec (fun j => hw1 j u) (hb1 u), hw2 u]

end Gnn

end
-- ==== Proof.KernelRegion0.lean ====
/-
  The first graph convolution launch: the array it leaves is the convolution layer of the arrays it finds.

  The launch walks 25 grid points. Point `t` fetches rows `4000 t … 4000 t + 3999` of the aggregate and of the node
  features, the two 4×8 weight matrices and the bias whole, runs the body, and writes the 4000×8 result back to the same
  rows of the output. What the body stores at `(p, q)` is the specification's entry of its loaded blocks, and entry
  `(p, j)` of a row block is entry `(4000 t + p, j)` of its array, so what point `t` writes back is rows
  `4000 t …` of ONE whole-array function, `Gnn.conv` of the five arrays. The 25 blocks tile the 100000 rows — row `r` is
  in block `r / 4000` — so the output array ends holding that function.
-/
import proofs.«170866_j29832842838651_2_alg».proof.Proof.PatchedFrameKernelIdeal
import proofs.«170866_j29832842838651_2_alg».proof.Proof.KernelDense
import proofs.«170866_j29832842838651_2_alg».proof.Proof.SpecCongr

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 points: the row-block windows and the output move together, one block per
    point; the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The layer of the arrays the launch finds. -/
abbrev G (c : Dev nD) : S100000x8.Idx → EReal :=
  Gnn.conv (n := 100000) (k := 4) (d := 8) (V c main_v13) (V c main_arg1) (V c main_arg4) (V c main_arg5) (V c main_arg6)

/-- What point `t` writes back is block `t` of that function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S4000x4) hz2, View.ld_unit_zero (S := S4x8) hz2, View.ld_unit_zero (S := S8) hz1]
  funext j
  obtain ⟨p, q, rfl⟩ : ∃ (p : Fin 4000) (q : Fin 8), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  refine (Cert.KernelIdeal.Dense.k0_pay1_apply (iblk0 V c 0 t) (iblk0 V c 1 t) (iblk0 V c 2 t) (iblk0 V c 3 t) (iblk0 V c 4 t) p q).trans ?_
  obtain ⟨h0, h1, h2, h3, h4, h5, h6, h7, h8, h9, h10⟩ := idx_facts t
  have hp : p.val < 4000 := p.isLt
  have hq : q.val < 8 := q.isLt
  refine Gnn.convAt_congr (n := 4000) (n' := 100000) (k := 4) (d := 8) (d' := 8) _ _ _ _ _ (V c main_v13) (V c main_arg1) (V c main_arg4) (V c main_arg5) (V c main_arg6)
    p q ((((cfg0.win 5).blk t).view.emb (ix2 p q)) 0) ((((cfg0.win 5).blk t).view.emb (ix2 p q)) 1) ?_ ?_ ?_ ?_ ?_
  · intro j
    have hj : j.val < 4 := j.isLt
    show V c main_v13 (((cfg0.win 0).blk t).view.emb (ix2 p j)) = V c main_v13 _
    refine congrArg (V c main_v13) (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 4 + 1 * j.val = j.val; omega
  · intro j
    have hj : j.val < 4 := j.isLt
    show V c main_arg1 (((cfg0.win 1).blk t).view.emb (ix2 p j)) = V c main_arg1 _
    refine congrArg (V c main_arg1) (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 4 + 1 * j.val = j.val; omega
  · intro j
    have hj : j.val < 4 := j.isLt
    show V c main_arg4 (((cfg0.win 2).blk t).view.emb (ix2 j q)) = V c main_arg4 _
    refine congrArg (V c main_arg4) (funext fun a => Fin.ext ?_)
    match a with
    | ⟨0, _⟩ => show win0_2.index t (0 : Fin 2) * 4 + 1 * j.val = j.val; omega
    | ⟨1, _⟩ => show win0_2.index t (1 : Fin 2) * 8 + 1 * q.val = win0_5.index t (1 : Fin 2) * 8 + 1 * q.val; omega
  · intro j
    have hj : j.val < 4 := j.isLt
    show V c main_arg5 (((cfg0.win 3).blk t).view.emb (ix2 j q)) = V c main_arg5 _
    refine congrArg (V c main_arg5) (funext fun a => Fin.ext ?_)
    match a with
    | ⟨0, _⟩ => show win0_3.index t (0 : Fin 2) * 4 + 1 * j.val = j.val; omega
    | ⟨1, _⟩ => show win0_3.index t (1 : Fin 2) * 8 + 1 * q.val = win0_5.index t (1 : Fin 2) * 8 + 1 * q.val; omega
  · show V c main_arg6 (((cfg0.win 4).blk t).view.emb (ix1 q)) = V c main_arg6 _
    refine congrArg (V c main_arg6) (funext fun a => Fin.ext ?_)
    match a with
    | ⟨0, _⟩ => show win0_4.index t (0 : Fin 1) * 8 + 1 * q.val = win0_5.index t (1 : Fin 2) * 8 + 1 * q.val; omega

/-- An index of the output array is in point `t`'s block iff each coordinate is in the block's range on its axis. -/
theorem mem_blk (t : Fin cfg0.N) (i : S100000x8.Idx) :
    i ∈ ((cfg0.win 5).blk t).view.set ↔ ∀ a : Fin 2, win0_5.index t a * S4000x8.size a ≤ (i a).val ∧ (i a).val < win0_5.index t a * S4000x8.size a + S4000x8.size a := by
  show i ∈ ((View.whole main_v14).slice (win0_5.rect t)).set ↔ _
  rw [View.set_slice_whole, Rect.mem_set_unit]
  exact Iff.rfl

/-- The 25 row blocks tile the 100000 rows: row `r` is in block `r / 4000`. -/
theorem cover (i : S100000x8.Idx) : ∃ t : Fin cfg0.N, (cfg0.win 5).flush t = true ∧ i ∈ ((cfg0.win 5).blk t).view.set := by
  have hi0 : (i 0).val < 100000 := (i 0).isLt
  have hi1 : (i 1).val < 8 := (i 1).isLt
  have hN : cfg0.N = 25 := N_0
  have hlt : (i 0).val / 4000 < cfg0.N := by rw [hN]; omega
  obtain ⟨-, -, -, -, -, -, -, -, -, f0, f1⟩ := idx_facts ⟨(i 0).val / 4000, hlt⟩
  have f0' : win0_5.index ⟨(i 0).val / 4000, hlt⟩ (0 : Fin 2) = (i 0).val / 4000 := f0
  refine ⟨⟨(i 0).val / 4000, hlt⟩, flush0_5 _, ?_⟩
  rw [mem_blk]
  intro a
  match a with
  | ⟨0, _⟩ =>
    show win0_5.index ⟨(i 0).val / 4000, hlt⟩ (0 : Fin 2) * 4000 ≤ (i 0).val ∧ (i 0).val < win0_5.index ⟨(i 0).val / 4000, hlt⟩ (0 : Fin 2) * 4000 + 4000
    omega
  | ⟨1, _⟩ =>
    show win0_5.index ⟨(i 0).val / 4000, hlt⟩ (1 : Fin 2) * 8 ≤ (i 1).val ∧ (i 1).val < win0_5.index ⟨(i 0).val / 4000, hlt⟩ (1 : Fin 2) * 8 + 8
    omega

/-- The output array after the launch is that function of the arrays the launch found. -/
theorem array_eq (c : Dev nD) : (dat0 V c).arrAt 5 cfg0.N = G V c :=
  (dat0 V c).arrAt_eq_of_cover 5 (G V c) (fun t _ => flushed_eq V c t) cover

end Cert.KernelIdeal.Region0

end
-- ==== Proof.KernelRegion1.lean ====
/-
  The second graph convolution launch: the array it leaves is the convolution layer of the arrays it finds.

  The launch walks 25 grid points. Point `t` fetches rows `4000 t … 4000 t + 3999` of the aggregate and of the node
  features, the two 8×16 weight matrices and the bias whole, runs the body, and writes the 4000×16 result back to the same
  rows of the output. What the body stores at `(p, q)` is the specification's entry of its loaded blocks, and entry
  `(p, j)` of a row block is entry `(4000 t + p, j)` of its array, so what point `t` writes back is rows
  `4000 t …` of ONE whole-array function, `Gnn.conv` of the five arrays. The 25 blocks tile the 100000 rows — row `r` is
  in block `r / 4000` — so the output array ends holding that function.
-/
import proofs.«170866_j29832842838651_2_alg».proof.Proof.PatchedFrameKernelIdeal
import proofs.«170866_j29832842838651_2_alg».proof.Proof.KernelDense
import proofs.«170866_j29832842838651_2_alg».proof.Proof.SpecCongr

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 points: the row-block windows and the output move together, one block per
    point; the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The layer of the arrays the launch finds. -/
abbrev G (c : Dev nD) : S100000x16.Idx → EReal :=
  Gnn.conv (n := 100000) (k := 8) (d := 16) (V c main_v28) (V c main_v14) (V c main_arg7) (V c main_arg8) (V c main_arg9)

/-- What point `t` writes back is block `t` of that function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4000x8) hz2, View.ld_unit_zero (S := S8x16) hz2, View.ld_unit_zero (S := S16) hz1]
  funext j
  obtain ⟨p, q, rfl⟩ : ∃ (p : Fin 4000) (q : Fin 16), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  refine (Cert.KernelIdeal.Dense.k1_pay1_apply (iblk1 V c 0 t) (iblk1 V c 1 t) (iblk1 V c 2 t) (iblk1 V c 3 t) (iblk1 V c 4 t) p q).trans ?_
  obtain ⟨h0, h1, h2, h3, h4, h5, h6, h7, h8, h9, h10⟩ := idx_facts t
  have hp : p.val < 4000 := p.isLt
  have hq : q.val < 16 := q.isLt
  refine Gnn.convAt_congr (n := 4000) (n' := 100000) (k := 8) (d := 16) (d' := 16) _ _ _ _ _ (V c main_v28) (V c main_v14) (V c main_arg7) (V c main_arg8) (V c main_arg9)
    p q ((((cfg1.win 5).blk t).view.emb (ix2 p q)) 0) ((((cfg1.win 5).blk t).view.emb (ix2 p q)) 1) ?_ ?_ ?_ ?_ ?_
  · intro j
    have hj : j.val < 8 := j.isLt
    show V c main_v28 (((cfg1.win 0).blk t).view.emb (ix2 p j)) = V c main_v28 _
    refine congrArg (V c main_v28) (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 8 + 1 * j.val = j.val; omega
  · intro j
    have hj : j.val < 8 := j.isLt
    show V c main_v14 (((cfg1.win 1).blk t).view.emb (ix2 p j)) = V c main_v14 _
    refine congrArg (V c main_v14) (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 8 + 1 * j.val = j.val; omega
  · intro j
    have hj : j.val < 8 := j.isLt
    show V c main_arg7 (((cfg1.win 2).blk t).view.emb (ix2 j q)) = V c main_arg7 _
    refine congrArg (V c main_arg7) (funext fun a => Fin.ext ?_)
    match a with
    | ⟨0, _⟩ => show win1_2.index t (0 : Fin 2) * 8 + 1 * j.val = j.val; omega
    | ⟨1, _⟩ => show win1_2.index t (1 : Fin 2) * 16 + 1 * q.val = win1_5.index t (1 : Fin 2) * 16 + 1 * q.val; omega
  · intro j
    have hj : j.val < 8 := j.isLt
    show V c main_arg8 (((cfg1.win 3).blk t).view.emb (ix2 j q)) = V c main_arg8 _
    refine congrArg (V c main_arg8) (funext fun a => Fin.ext ?_)
    match a with
    | ⟨0, _⟩ => show win1_3.index t (0 : Fin 2) * 8 + 1 * j.val = j.val; omega
    | ⟨1, _⟩ => show win1_3.index t (1 : Fin 2) * 16 + 1 * q.val = win1_5.index t (1 : Fin 2) * 16 + 1 * q.val; omega
  · show V c main_arg9 (((cfg1.win 4).blk t).view.emb (ix1 q)) = V c main_arg9 _
    refine congrArg (V c main_arg9) (funext fun a => Fin.ext ?_)
    match a with
    | ⟨0, _⟩ => show win1_4.index t (0 : Fin 1) * 16 + 1 * q.val = win1_5.index t (1 : Fin 2) * 16 + 1 * q.val; omega

/-- An index of the output array is in point `t`'s block iff each coordinate is in the block's range on its axis. -/
theorem mem_blk (t : Fin cfg1.N) (i : S100000x16.Idx) :
    i ∈ ((cfg1.win 5).blk t).view.set ↔ ∀ a : Fin 2, win1_5.index t a * S4000x16.size a ≤ (i a).val ∧ (i a).val < win1_5.index t a * S4000x16.size a + S4000x16.size a := by
  show i ∈ ((View.whole main_v29).slice (win1_5.rect t)).set ↔ _
  rw [View.set_slice_whole, Rect.mem_set_unit]
  exact Iff.rfl

/-- The 25 row blocks tile the 100000 rows: row `r` is in block `r / 4000`. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 25 := N_1
  have hlt : (i 0).val / 4000 < cfg1.N := by rw [hN]; omega
  obtain ⟨-, -, -, -, -, -, -, -, -, f0, f1⟩ := idx_facts ⟨(i 0).val / 4000, hlt⟩
  have f0' : win1_5.index ⟨(i 0).val / 4000, hlt⟩ (0 : Fin 2) = (i 0).val / 4000 := f0
  refine ⟨⟨(i 0).val / 4000, hlt⟩, flush1_5 _, ?_⟩
  rw [mem_blk]
  intro a
  match a with
  | ⟨0, _⟩ =>
    show win1_5.index ⟨(i 0).val / 4000, hlt⟩ (0 : Fin 2) * 4000 ≤ (i 0).val ∧ (i 0).val < win1_5.index ⟨(i 0).val / 4000, hlt⟩ (0 : Fin 2) * 4000 + 4000
    omega
  | ⟨1, _⟩ =>
    show win1_5.index ⟨(i 0).val / 4000, hlt⟩ (1 : Fin 2) * 16 ≤ (i 1).val ∧ (i 1).val < win1_5.index ⟨(i 0).val / 4000, hlt⟩ (1 : Fin 2) * 16 + 16
    omega

/-- The output array after the launch is that function of the arrays the launch found. -/
theorem array_eq (c : Dev nD) : (dat1 V c).arrAt 5 cfg1.N = G V c :=
  (dat1 V c).arrAt_eq_of_cover 5 (G V c) (fun t _ => flushed_eq V c t) cover

end Cert.KernelIdeal.Region1

end
-- ==== Proof.KernelRegion2.lean ====
/-
  The linear launch over the unconnected nodes: the array it leaves is the affine layer of the arrays it finds.

  The launch walks 25 grid points. Point `t` fetches rows `4000 t … 4000 t + 3999` of the node features, the 4×16 weight
  matrix and the bias whole, runs the body, and writes the 4000×16 result back to the same rows of the output. What the body
  stores at `(p, q)` is the specification's entry of its loaded blocks, and entry `(p, j)` of the row block is entry
  `(4000 t + p, j)` of its array, so what point `t` writes back is rows `4000 t …` of ONE whole-array function,
  `Gnn.affine` of the three arrays. The 25 blocks tile the 100000 rows — row `r` is in block `r / 4000` — so the output
  array ends holding that function.
-/
import proofs.«170866_j29832842838651_2_alg».proof.Proof.PatchedFrameKernelIdeal
import proofs.«170866_j29832842838651_2_alg».proof.Proof.KernelDense
import proofs.«170866_j29832842838651_2_alg».proof.Proof.SpecCongr

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 points: the row-block window and the output move together, one block per
    point; the weights and the bias stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The affine layer of the arrays the launch finds. -/
abbrev G (c : Dev nD) : S100000x16.Idx → EReal :=
  Gnn.affine (n := 100000) (k := 4) (d := 16) (V c main_arg0) (V c main_arg10) (V c main_arg11)

/-- What point `t` writes back is block `t` of that function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S4000x4) hz2, View.ld_unit_zero (S := S4x16) hz2, View.ld_unit_zero (S := S16) hz1]
  funext j
  obtain ⟨p, q, rfl⟩ : ∃ (p : Fin 4000) (q : Fin 16), j = ix2 p q := ⟨j 0, j 1, eq_ix2 j⟩
  show k2_pay1 (F := Ideal) (iblk2 V c 0 t) (iblk2 V c 1 t) (iblk2 V c 2 t) (ix2 p q)
      = G V c (((cfg2.win 3).blk t).view.emb (ix2 p q))
  refine (Cert.KernelIdeal.Dense.k2_pay1_apply (iblk2 V c 0 t) (iblk2 V c 1 t) (iblk2 V c 2 t) p q).trans ?_
  obtain ⟨h0, h1, h2, h3, h4, h5, h6⟩ := idx_facts t
  have hp : p.val < 4000 := p.isLt
  have hq : q.val < 16 := q.isLt
  refine Gnn.affineAt_congr (n := 4000) (n' := 100000) (k := 4) (d := 16) (d' := 16) _ _ _ (V c main_arg0) (V c main_arg10) (V c main_arg11)
    p q ((((cfg2.win 3).blk t).view.emb (ix2 p q)) 0) ((((cfg2.win 3).blk t).view.emb (ix2 p q)) 1) ?_ ?_ ?_
  · intro j
    have hj : j.val < 4 := j.isLt
    show V c main_arg0 (((cfg2.win 0).blk t).view.emb (ix2 p j)) = V c main_arg0 _
    refine congrArg (V c main_arg0) (funext fun a => Fin.ext ?_)
    match a with
    | ⟨0, _⟩ => show win2_0.index t (0 : Fin 2) * 4000 + 1 * p.val = win2_3.index t (0 : Fin 2) * 4000 + 1 * p.val; omega
    | ⟨1, _⟩ => show win2_0.index t (1 : Fin 2) * 4 + 1 * j.val = j.val; omega
  · intro j
    have hj : j.val < 4 := j.isLt
    show V c main_arg10 (((cfg2.win 1).blk t).view.emb (ix2 j q)) = V c main_arg10 _
    refine congrArg (V c main_arg10) (funext fun a => Fin.ext ?_)
    match a with
    | ⟨0, _⟩ => show win2_1.index t (0 : Fin 2) * 4 + 1 * j.val = j.val; omega
    | ⟨1, _⟩ => show win2_1.index t (1 : Fin 2) * 16 + 1 * q.val = win2_3.index t (1 : Fin 2) * 16 + 1 * q.val; omega
  · show V c main_arg11 (((cfg2.win 2).blk t).view.emb (ix1 q)) = V c main_arg11 _
    refine congrArg (V c main_arg11) (funext fun a => Fin.ext ?_)
    match a with
    | ⟨0, _⟩ => show win2_2.index t (0 : Fin 1) * 16 + 1 * q.val = win2_3.index t (1 : Fin 2) * 16 + 1 * q.val; omega

/-- An index of the output array is in point `t`'s block iff each coordinate is in the block's range on its axis. -/
theorem mem_blk (t : Fin cfg2.N) (i : S100000x16.Idx) :
    i ∈ ((cfg2.win 3).blk t).view.set ↔ ∀ a : Fin 2, win2_3.index t a * S4000x16.size a ≤ (i a).val ∧ (i a).val < win2_3.index t a * S4000x16.size a + S4000x16.size a := by
  show i ∈ ((View.whole main_v30).slice (win2_3.rect t)).set ↔ _
  rw [View.set_slice_whole, Rect.mem_set_unit]
  exact Iff.rfl

/-- The 25 row blocks tile the 100000 rows: row `r` is in block `r / 4000`. -/
theorem cover (i : S100000x16.Idx) : ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 25 := N_2
  have hlt : (i 0).val / 4000 < cfg2.N := by rw [hN]; omega
  obtain ⟨-, -, -, -, -, f0, f1⟩ := idx_facts ⟨(i 0).val / 4000, hlt⟩
  have f0' : win2_3.index ⟨(i 0).val / 4000, hlt⟩ (0 : Fin 2) = (i 0).val / 4000 := f0
  refine ⟨⟨(i 0).val / 4000, hlt⟩, flush2_3 _, ?_⟩
  rw [mem_blk]
  intro a
  match a with
  | ⟨0, _⟩ =>
    show win2_3.index ⟨(i 0).val / 4000, hlt⟩ (0 : Fin 2) * 4000 ≤ (i 0).val ∧ (i 0).val < win2_3.index ⟨(i 0).val / 4000, hlt⟩ (0 : Fin 2) * 4000 + 4000
    omega
  | ⟨1, _⟩ =>
    show win2_3.index ⟨(i 0).val / 4000, hlt⟩ (1 : Fin 2) * 16 ≤ (i 1).val ∧ (i 1).val < win2_3.index ⟨(i 0).val / 4000, hlt⟩ (1 : Fin 2) * 16 + 16
    omega

/-- The output array after the launch is that function of the arrays the launch found. -/
theorem array_eq (c : Dev nD) : (dat2 V c).arrAt 3 cfg2.N = G V c :=
  (dat2 V c).arrAt_eq_of_cover 3 (G V c) (fun t _ => flushed_eq V c t) cover

end Cert.KernelIdeal.Region2

end
-- ==== Proof.KernelRegion3.lean ====
/-
  The perceptron launch over the candidate edges: the array it leaves is the perceptron of the arrays it finds.

  The launch walks 250 grid points. Point `t` fetches rows `8000 t … 8000 t + 7999` of the candidates' paired node rows,
  both weight matrices and both biases whole, runs the body, and writes the 8000×1 result back to the same rows of the
  output. What the body stores at `(p, q)` is the specification's entry of its loaded blocks — which reads row `p` of the
  data block, all of the first weight matrix and bias, and column `q` of the second — and entry `(p, j)` of the row block is
  entry `(8000 t + p, j)` of its array, so what point `t` writes back is rows `8000 t …` of ONE whole-array function,
  `Gnn.mlp` of the five arrays. The 250 blocks tile the 2000000 rows — row `r` is in block `r / 8000` — so the output array
  ends holding that function.
-/
import proofs.«170866_j29832842838651_2_alg».proof.Proof.PatchedFrameKernelIdeal
import proofs.«170866_j29832842838651_2_alg».proof.Proof.KernelDense
import proofs.«170866_j29832842838651_2_alg».proof.Proof.SpecCongr

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 250 points: the row-block window and the output move together, one block per
    point; the weights and the biases stay at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- The perceptron of the arrays the launch finds. -/
abbrev G (c : Dev nD) : S2000000x1.Idx → EReal :=
  Gnn.mlp (n := 2000000) (k := 32) (h := 64) (d := 1) (V c main_v50) (V c main_arg12) (V c main_arg13) (V c main_arg14) (V c main_arg15)

/-- What point `t` writes back is block `t` of that function. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz2]
  simp only [View.ld_unit_zero (S := S8000x32) hz2, View.ld_unit_zero (S := S32x64) hz2, View.ld_unit_zero (S := S64) hz1, View.ld_unit_zero (S := S64x1) hz2, View.ld_unit_zero (S := S1) hz1]
  funext j
  obtain ⟨p, q, rfl⟩ : ∃ (p : Fin 8000) (q : Fin 1), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
      = G V c (((cfg3.win 5).blk t).view.emb (ix2 p q))
  refine (Cert.KernelIdeal.Dense.k3_pay1_apply (iblk3 V c 0 t) (iblk3 V c 1 t) (iblk3 V c 2 t) (iblk3 V c 3 t) (iblk3 V c 4 t) p q).trans ?_
  obtain ⟨h0, h1, h2, h3, h4, h5, h6, h7, h8, h9⟩ := idx_facts t
  have hp : p.val < 8000 := p.isLt
  have hq : q.val < 1 := q.isLt
  refine Gnn.mlpAt_congr (n := 8000) (n' := 2000000) (k := 32) (h := 64) (d := 1) (d' := 1) _ _ _ _ _ (V c main_v50) (V c main_arg12) (V c main_arg13) (V c main_arg14) (V c main_arg15)
    p q ((((cfg3.win 5).blk t).view.emb (ix2 p q)) 0) ((((cfg3.win 5).blk t).view.emb (ix2 p q)) 1) ?_ ?_ ?_ ?_ ?_
  · intro j
    have hj : j.val < 32 := j.isLt
    show V c main_v50 (((cfg3.win 0).blk t).view.emb (ix2 p j)) = V c main_v50 _
    refine congrArg (V c main_v50) (funext fun a => Fin.ext ?_)
    match a with
    | ⟨0, _⟩ => show win3_0.index t (0 : Fin 2) * 8000 + 1 * p.val = win3_5.index t (0 : Fin 2) * 8000 + 1 * p.val; omega
    | ⟨1, _⟩ => show win3_0.index t (1 : Fin 2) * 32 + 1 * j.val = j.val; omega
  · intro j u
    have hj : j.val < 32 := j.isLt
    have hu : u.val < 64 := u.isLt
    show V c main_arg12 (((cfg3.win 1).blk t).view.emb (ix2 j u)) = V c main_arg12 (ix2 j u)
    refine congrArg (V c main_arg12) (funext fun a => Fin.ext ?_)
    match a with
    | ⟨0, _⟩ => show win3_1.index t (0 : Fin 2) * 32 + 1 * j.val = j.val; omega
    | ⟨1, _⟩ => show win3_1.index t (1 : Fin 2) * 64 + 1 * u.val = u.val; omega
  · intro u
    have hu : u.val < 64 := u.isLt
    show V c main_arg13 (((cfg3.win 2).blk t).view.emb (ix1 u)) = V c main_arg13 (ix1 u)
    refine congrArg (V c main_arg13) (funext fun a => Fin.ext ?_)
    match a with
    | ⟨0, _⟩ => show win3_2.index t (0 : Fin 1) * 64 + 1 * u.val = u.val; omega
  · intro j
    have hj : j.val < 64 := j.isLt
    show V c main_arg14 (((cfg3.win 3).blk t).view.emb (ix2 j q)) = V c main_arg14 _
    refine congrArg (V c main_arg14) (funext fun a => Fin.ext ?_)
    match a with
    | ⟨0, _⟩ => show win3_3.index t (0 : Fin 2) * 64 + 1 * j.val = j.val; omega
    | ⟨1, _⟩ => show win3_3.index t (1 : Fin 2) * 1 + 1 * q.val = win3_5.index t (1 : Fin 2) * 1 + 1 * q.val; omega
  · show V c main_arg15 (((cfg3.win 4).blk t).view.emb (ix1 q)) = V c main_arg15 _
    refine congrArg (V c main_arg15) (funext fun a => Fin.ext ?_)
    match a with
    | ⟨0, _⟩ => show win3_4.index t (0 : Fin 1) * 1 + 1 * q.val = win3_5.index t (1 : Fin 2) * 1 + 1 * q.val; omega

/-- An index of the output array is in point `t`'s block iff each coordinate is in the block's range on its axis. -/
theorem mem_blk (t : Fin cfg3.N) (i : S2000000x1.Idx) :
    i ∈ ((cfg3.win 5).blk t).view.set ↔ ∀ a : Fin 2, win3_5.index t a * S8000x1.size a ≤ (i a).val ∧ (i a).val < win3_5.index t a * S8000x1.size a + S8000x1.size a := by
  show i ∈ ((View.whole main_v51).slice (win3_5.rect t)).set ↔ _
  rw [View.set_slice_whole, Rect.mem_set_unit]
  exact Iff.rfl

/-- The 250 row blocks tile the 2000000 rows: row `r` is in block `r / 8000`. -/
theorem cover (i : S2000000x1.Idx) : ∃ t : Fin cfg3.N, (cfg3.win 5).flush t = true ∧ i ∈ ((cfg3.win 5).blk t).view.set := by
  have hi0 : (i 0).val < 2000000 := (i 0).isLt
  have hi1 : (i 1).val < 1 := (i 1).isLt
  have hN : cfg3.N = 250 := N_3
  have hlt : (i 0).val / 8000 < cfg3.N := by rw [hN]; omega
  obtain ⟨-, -, -, -, -, -, -, -, f0, f1⟩ := idx_facts ⟨(i 0).val / 8000, hlt⟩
  have f0' : win3_5.index ⟨(i 0).val / 8000, hlt⟩ (0 : Fin 2) = (i 0).val / 8000 := f0
  refine ⟨⟨(i 0).val / 8000, hlt⟩, flush3_5 _, ?_⟩
  rw [mem_blk]
  intro a
  match a with
  | ⟨0, _⟩ =>
    show win3_5.index ⟨(i 0).val / 8000, hlt⟩ (0 : Fin 2) * 8000 ≤ (i 0).val ∧ (i 0).val < win3_5.index ⟨(i 0).val / 8000, hlt⟩ (0 : Fin 2) * 8000 + 8000
    omega
  | ⟨1, _⟩ =>
    show win3_5.index ⟨(i 0).val / 8000, hlt⟩ (1 : Fin 2) * 1 ≤ (i 1).val ∧ (i 1).val < win3_5.index ⟨(i 0).val / 8000, hlt⟩ (1 : Fin 2) * 1 + 1
    omega

/-- The output array after the launch is that function of the arrays the launch found. -/
theorem array_eq (c : Dev nD) : (dat3 V c).arrAt 5 cfg3.N = G V c :=
  (dat3 V c).arrAt_eq_of_cover 5 (G V c) (fun t _ => flushed_eq V c t) cover

end Cert.KernelIdeal.Region3

end
-- ==== Proof.KernelValue.lean ====
/-
  The idealized kernel's result, read back through @main.

  The fold of buffer contents through @main's eight segments is read at the result buffer, last segment first. The last
  stretch of host operations only drops the unit axis of the perceptron launch's output. That launch's output array is the
  perceptron of the arrays it found: the candidates' paired node rows, which the stretch before it gathered out of the two
  stacked node tables, and four argument arrays. The second table is the linear launch's output, the affine layer of three
  argument arrays; the first is the second graph convolution launch's output, the layer of an aggregate, the hidden node
  features and three argument arrays; the hidden features are the first graph convolution launch's output; each aggregate is
  what the stretch before its launch summed along the edge list. No host operation and no launch writes an argument array,
  so wherever the fold reads one it reads the launch memory. The data movement is carried as the four functions `glue`,
  spelt as the host operations spell them and never opened; what is left is `Gnn.out glue` of the sixteen arguments.
-/
import proofs.«170866_j29832842838651_2_alg».proof.Proof.PatchedFrameKernelIdeal
import proofs.«170866_j29832842838651_2_alg».proof.Proof.KernelRegion0
import proofs.«170866_j29832842838651_2_alg».proof.Proof.KernelRegion1
import proofs.«170866_j29832842838651_2_alg».proof.Proof.KernelRegion2
import proofs.«170866_j29832842838651_2_alg».proof.Proof.KernelRegion3
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.GenP

/-- The kernel program's spelling of the shared data movement. A node index below zero counts from the end of its table
    (compare with zero, add the table's length, select); source rows are gathered and summed into destination rows from a
    zero table; the two node tables are stacked and a candidate's two rows laid side by side; the unit axis is dropped. -/
def glue : Gnn.Glue where
  agg4 x e :=
    let src : IVec S3200000 32 := fun i => shapeCast S3200000 (extractStridedSlice S1x3200000 ![0, 0] e slices_S2x3200000_S1x3200000_0_0) shapeCasts_S1x3200000_S3200000 i
    let dst : IVec S3200000 32 := fun i => shapeCast S3200000 (extractStridedSlice S1x3200000 ![1, 0] e slices_S2x3200000_S1x3200000_1_0) shapeCasts_S1x3200000_S3200000 i
    Host.scatterAdd (F := Ideal) scatter_S100000x4_S3200000x1_S3200000x4_1_0_0_1
      (broadcastInDim S100000x4 ![] bcast_S_S100000x4 (constant (F := Ideal) S_ .f32 0x00000000#32))
      (broadcastInDim S3200000x1 ![0] bcast_S3200000_S3200000x1_0 dst)
      (Host.gather gather_S100000x4_S3200000x1_S3200000x4_1_0_n_n_0_1_14 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
  agg8 x e :=
    let src : IVec S3200000 32 := fun i => shapeCast S3200000 (extractStridedSlice S1x3200000 ![0, 0] e slices_S2x3200000_S1x3200000_0_0) shapeCasts_S1x3200000_S3200000 i
    let dst : IVec S3200000 32 := fun i => shapeCast S3200000 (extractStridedSlice S1x3200000 ![1, 0] e slices_S2x3200000_S1x3200000_1_0) shapeCasts_S1x3200000_S3200000 i
    Host.scatterAdd (F := Ideal) scatter_S100000x8_S3200000x1_S3200000x8_1_0_0_1
      (broadcastInDim S100000x8 ![] bcast_S_S100000x8 (constant (F := Ideal) S_ .f32 0x00000000#32))
      (broadcastInDim S3200000x1 ![0] bcast_S3200000_S3200000x1_0 dst)
      (Host.gather gather_S100000x8_S3200000x1_S3200000x8_1_0_n_n_0_1_18 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
  pair xg xu cand :=
    let stk : FVec Ideal S200000x16 .f32 := concatenate S200000x16 0 [⟨S100000x16, xg⟩, ⟨S100000x16, xu⟩] concatenates_S100000x16_S100000x16_S200000x16_d0
    let c0 : IVec S2000000 32 := fun i => shapeCast S2000000 (extractStridedSlice S2000000x1 ![0, 0] cand slices_S2000000x2_S2000000x1_0_0) shapeCasts_S2000000x1_S2000000 i
    let c1 : IVec S2000000 32 := fun i => shapeCast S2000000 (extractStridedSlice S2000000x1 ![0, 1] cand slices_S2000000x2_S2000000x1_0_1) shapeCasts_S2000000x1_S2000000 i
    concatenate S2000000x32 1
      [⟨S2000000x16, Host.gather gather_S200000x16_S2000000x1_S2000000x16_1_0_n_n_0_1_116 stk
          (broadcastInDim S2000000x1 ![0] bcast_S2000000_S2000000x1_0
            (select (cmpi .slt c0 (broadcastInDim S2000000 ![] bcast_S_S2000000 (constantI S_ 32 0#32)))
              (addi c0 (broadcastInDim S2000000 ![] bcast_S_S2000000 (constantI S_ 32 200000#32))) c0))⟩,
       ⟨S2000000x16, Host.gather gather_S200000x16_S2000000x1_S2000000x16_1_0_n_n_0_1_116 stk
          (broadcastInDim S2000000x1 ![0] bcast_S2000000_S2000000x1_0
            (select (cmpi .slt c1 (broadcastInDim S2000000 ![] bcast_S_S2000000 (constantI S_ 32 0#32)))
              (addi c1 (broadcastInDim S2000000 ![] bcast_S_S2000000 (constantI S_ 32 200000#32))) c1))⟩]
      concatenates_S2000000x16_S2000000x16_S2000000x32_d1
  flat y := fun i => shapeCast S2000000 y shapeCasts_S2000000x1_S2000000 i

/-! ## Each stretch of host operations, from any contents -/

section Stretches
variable (Wv : Valuation τ sig (Elt Ideal))

-- the array operations stay closed: each stretch's result is compared with the glue as spelt, never by unfolding them
attribute [local irreducible] Host.gather Host.scatterAdd concatenate extractStridedSlice shapeCast broadcastInDim

set_option maxHeartbeats 1000000 in
/-- The first stretch leaves the first aggregate. -/
theorem stretch0 : StableHlo.after (hostOps0 (F := Ideal)) Wv (Proc.devRef .tc main_v13)
    = glue.agg4 (Wv (Proc.devRef .tc main_arg1)) (Wv (Proc.devRef .tc main_arg3)) := by
  dsimp only [hostOps0]
  after_results_simp
  rfl

set_option maxHeartbeats 1000000 in
/-- The second stretch leaves the second aggregate. -/
theorem stretch1 : StableHlo.after (hostOps1 (F := Ideal)) Wv (Proc.devRef .tc main_v28)
    = glue.agg8 (Wv (Proc.devRef .tc main_v14)) (Wv (Proc.devRef .tc main_arg3)) := by
  dsimp only [hostOps1]
  after_results_simp
  rfl

set_option maxHeartbeats 1000000 in
/-- The third stretch leaves the candidates' paired node rows. -/
theorem stretch3 : StableHlo.after (hostOps3 (F := Ideal)) Wv (Proc.devRef .tc main_v50)
    = glue.pair (Wv (Proc.devRef .tc main_v29)) (Wv (Proc.devRef .tc main_v30)) (Wv (Proc.devRef .tc main_arg2)) := by
  dsimp only [hostOps3]
  after_results_simp
  rfl

/-- The last stretch drops the unit axis. -/
theorem stretch4 : StableHlo.after (hostOps4 (F := Ideal)) Wv (Proc.devRef .tc main_v52)
    = glue.flat (Wv (Proc.devRef .tc main_v51)) := by
  dsimp only [hostOps4]
  after_results_simp
  rfl

end Stretches

/-! ## A buffer nothing writes keeps its launch contents -/

/-- No operation of the named stretch writes the buffer: an operation writes its one result, and the references differ. -/
local macro "not_written" ops:ident : tactic => `(tactic| exact List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- At the first launch's entry. -/
theorem keep1 (b : Ref sig .tc) (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h0).trans rfl
/-- At the first launch's exit. -/
theorem keep2 (b : Ref sig .tc) (hn0 : ∀ w, Pipeline.arrRef spec0 w ≠ b)
    (h0 : ∀ op ∈ (hostOps0 : List (HloOp τ sig (Elt Ideal))), Proc.devRef .tc b ∉ op.writes) :
    W2 m ρ c (Proc.devRef .tc b) = m ((c : Thread nD τ).loc b) :=
  (W2_of_ne m ρ c b hn0).trans (keep1 m ρ c b h0)
/-- At the second launch's entry. -/
theorem keep3 (b : Ref sig .tc) (h1 : ∀ op ∈ (hostOps1 : List (HloOp τ sig (Elt Ideal))), Proc.devRef .tc b ∉ op.writes)
    (hn0 : ∀ w, Pipeline.arrRef spec0 w ≠ b)
    (h0 : ∀ op ∈ (hostOps0 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h1).trans (keep2 m ρ c b hn0 h0)
/-- At the second launch's exit, which is the linear launch's entry. -/
theorem keep4 (b : Ref sig .tc) (hn1 : ∀ w, Pipeline.arrRef spec1 w ≠ b)
    (h1 : ∀ op ∈ (hostOps1 : List (HloOp τ sig (Elt Ideal))), Proc.devRef .tc b ∉ op.writes)
    (hn0 : ∀ w, Pipeline.arrRef spec0 w ≠ b)
    (h0 : ∀ op ∈ (hostOps0 : List (HloOp τ sig (Elt Ideal))), Proc.devRef .tc b ∉ op.writes) :
    W4 m ρ c (Proc.devRef .tc b) = m ((c : Thread nD τ).loc b) :=
  (W4_of_ne m ρ c b hn1).trans (keep3 m ρ c b h1 hn0 h0)
/-- At the linear launch's exit. -/
theorem keep5 (b : Ref sig .tc) (hn2 : ∀ w, Pipeline.arrRef spec2 w ≠ b) (hn1 : ∀ w, Pipeline.arrRef spec1 w ≠ b)
    (h1 : ∀ op ∈ (hostOps1 : List (HloOp τ sig (Elt Ideal))), Proc.devRef .tc b ∉ op.writes)
    (hn0 : ∀ w, Pipeline.arrRef spec0 w ≠ b)
    (h0 : ∀ op ∈ (hostOps0 : List (HloOp τ sig (Elt Ideal))), Proc.devRef .tc b ∉ op.writes) :
    W5 m ρ c (Proc.devRef .tc b) = m ((c : Thread nD τ).loc b) :=
  (W5_of_ne m ρ c b hn2).trans (keep4 m ρ c b hn1 h1 hn0 h0)
/-- At the perceptron launch's entry. -/
theorem keep6 (b : Ref sig .tc) (h3 : ∀ op ∈ (hostOps3 : List (HloOp τ sig (Elt Ideal))), Proc.devRef .tc b ∉ op.writes)
    (hn2 : ∀ w, Pipeline.arrRef spec2 w ≠ b) (hn1 : ∀ w, Pipeline.arrRef spec1 w ≠ b)
    (h1 : ∀ op ∈ (hostOps1 : List (HloOp τ sig (Elt Ideal))), Proc.devRef .tc b ∉ op.writes)
    (hn0 : ∀ w, Pipeline.arrRef spec0 w ≠ b)
    (h0 : ∀ op ∈ (hostOps0 : List (HloOp τ sig (Elt Ideal))), Proc.devRef .tc b ∉ op.writes) :
    W6 m ρ c (Proc.devRef .tc b) = m ((c : Thread nD τ).loc b) :=
  (StableHlo.after_of_forall_not_mem (b := Proc.devRef .tc b) _ _ h3).trans (keep5 m ρ c b hn2 hn1 h1 hn0 h0)

/-! ## The launches' outputs, in order -/

/-- The hidden node features: the first launch's output. -/
abbrev hid : Gnn.Mat 100000 8 :=
  Gnn.conv (glue.agg4 (m ((c : Thread nD τ).loc main_arg1)) (m ((c : Thread nD τ).loc main_arg3))) (m ((c : Thread nD τ).loc main_arg1))
    (m ((c : Thread nD τ).loc main_arg4)) (m ((c : Thread nD τ).loc main_arg5)) (m ((c : Thread nD τ).loc main_arg6))

theorem at_v14 : W2 m ρ c (Proc.devRef .tc main_v14) = hid m c := by
  refine (W2_arr m ρ c 5).trans ((Region0.array_eq (V1 m ρ) c).trans ?_)
  show Gnn.conv (W1 m ρ c (Proc.devRef .tc main_v13)) (W1 m ρ c (Proc.devRef .tc main_arg1)) (W1 m ρ c (Proc.devRef .tc main_arg4))
      (W1 m ρ c (Proc.devRef .tc main_arg5)) (W1 m ρ c (Proc.devRef .tc main_arg6)) = _
  rw [show W1 m ρ c (Proc.devRef .tc main_v13) = glue.agg4 (m ((c : Thread nD τ).loc main_arg1)) (m ((c : Thread nD τ).loc main_arg3))
        from stretch0 (W0 m ρ c),
    keep1 m ρ c main_arg1 (by not_written hostOps0), keep1 m ρ c main_arg4 (by not_written hostOps0),
    keep1 m ρ c main_arg5 (by not_written hostOps0), keep1 m ρ c main_arg6 (by not_written hostOps0)]

/-- The connected nodes' features: the second launch's output. -/
abbrev xg : Gnn.Mat 100000 16 :=
  Gnn.conv (glue.agg8 (hid m c) (m ((c : Thread nD τ).loc main_arg3))) (hid m c)
    (m ((c : Thread nD τ).loc main_arg7)) (m ((c : Thread nD τ).loc main_arg8)) (m ((c : Thread nD τ).loc main_arg9))

theorem at_v14' : W3 m ρ c (Proc.devRef .tc main_v14) = hid m c :=
  (StableHlo.after_of_forall_not_mem (b := Proc.devRef .tc main_v14) _ _ (by not_written hostOps1)).trans (at_v14 m ρ c)

theorem at_v28 : W3 m ρ c (Proc.devRef .tc main_v28) = glue.agg8 (hid m c) (m ((c : Thread nD τ).loc main_arg3)) := by
  refine (stretch1 (W2 m ρ c)).trans ?_
  rw [at_v14 m ρ c, keep2 m ρ c main_arg3 (by decide) (by not_written hostOps0)]

theorem at_v29 : W4 m ρ c (Proc.devRef .tc main_v29) = xg m c := by
  refine (W4_arr m ρ c 5).trans ((Region1.array_eq (V3 m ρ) c).trans ?_)
  show Gnn.conv (W3 m ρ c (Proc.devRef .tc main_v28)) (W3 m ρ c (Proc.devRef .tc main_v14)) (W3 m ρ c (Proc.devRef .tc main_arg7))
      (W3 m ρ c (Proc.devRef .tc main_arg8)) (W3 m ρ c (Proc.devRef .tc main_arg9)) = _
  rw [at_v28 m ρ c, at_v14' m ρ c,
    keep3 m ρ c main_arg7 (by not_written hostOps1) (by decide) (by not_written hostOps0),
    keep3 m ρ c main_arg8 (by not_written hostOps1) (by decide) (by not_written hostOps0),
    keep3 m ρ c main_arg9 (by not_written hostOps1) (by decide) (by not_written hostOps0)]

/-- The unconnected nodes' features: the linear launch's output. -/
abbrev xu : Gnn.Mat 100000 16 :=
  Gnn.affine (m ((c : Thread nD τ).loc main_arg0)) (m ((c : Thread nD τ).loc main_arg10)) (m ((c : Thread nD τ).loc main_arg11))

theorem at_v30 : W5 m ρ c (Proc.devRef .tc main_v30) = xu m c := by
  refine (W5_arr m ρ c 3).trans ((Region2.array_eq (V4 m ρ) c).trans ?_)
  show Gnn.affine (W4 m ρ c (Proc.devRef .tc main_arg0)) (W4 m ρ c (Proc.devRef .tc main_arg10)) (W4 m ρ c (Proc.devRef .tc main_arg11)) = _
  rw [keep4 m ρ c main_arg0 (by decide) (by not_written hostOps1) (by decide) (by not_written hostOps0),
    keep4 m ρ c main_arg10 (by decide) (by not_written hostOps1) (by decide) (by not_written hostOps0),
    keep4 m ρ c main_arg11 (by decide) (by not_written hostOps1) (by decide) (by not_written hostOps0)]

theorem at_v29' : W5 m ρ c (Proc.devRef .tc main_v29) = xg m c :=
  (W5_of_ne m ρ c main_v29 (by decide)).trans (at_v29 m ρ c)

/-- The candidates' paired node rows. -/
theorem at_v50 : W6 m ρ c (Proc.devRef .tc main_v50) = glue.pair (xg m c) (xu m c) (m ((c : Thread nD τ).loc main_arg2)) := by
  refine (stretch3 (W5 m ρ c)).trans ?_
  rw [at_v29' m ρ c, at_v30 m ρ c,
    keep5 m ρ c main_arg2 (by decide) (by decide) (by not_written hostOps1) (by decide) (by not_written hostOps0)]

/-- The perceptron launch's output. -/
theorem at_v51 : W7 m ρ c (Proc.devRef .tc main_v51)
    = Gnn.mlp (glue.pair (xg m c) (xu m c) (m ((c : Thread nD τ).loc main_arg2))) (m ((c : Thread nD τ).loc main_arg12))
        (m ((c : Thread nD τ).loc main_arg13)) (m ((c : Thread nD τ).loc main_arg14)) (m ((c : Thread nD τ).loc main_arg15)) := by
  refine (W7_arr m ρ c 5).trans ((Region3.array_eq (V6 m ρ) c).trans ?_)
  show Gnn.mlp (W6 m ρ c (Proc.devRef .tc main_v50)) (W6 m ρ c (Proc.devRef .tc main_arg12)) (W6 m ρ c (Proc.devRef .tc main_arg13))
      (W6 m ρ c (Proc.devRef .tc main_arg14)) (W6 m ρ c (Proc.devRef .tc main_arg15)) = _
  rw [at_v50 m ρ c,
    keep6 m ρ c main_arg12 (by not_written hostOps3) (by decide) (by decide) (by not_written hostOps1) (by decide) (by not_written hostOps0),
    keep6 m ρ c main_arg13 (by not_written hostOps3) (by decide) (by decide) (by not_written hostOps1) (by decide) (by not_written hostOps0),
    keep6 m ρ c main_arg14 (by not_written hostOps3) (by decide) (by decide) (by not_written hostOps1) (by decide) (by not_written hostOps0),
    keep6 m ρ c main_arg15 (by not_written hostOps3) (by decide) (by decide) (by not_written hostOps1) (by decide) (by not_written hostOps0)]

/-- THE KERNEL'S RESULT: the fold's final contents of the result buffer are the specification's edge scores, with the kernel
    program's spelling of the data movement, of the sixteen argument arrays as launched. -/
theorem result_eq : W8 m ρ c (Proc.devRef .tc main_v52)
    = Gnn.out glue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) := by
  refine (stretch4 (W7 m ρ c)).trans ?_
  rw [at_v51 m ρ c]
  rfl

end Cert.KernelIdeal.Value

end
-- ==== Proof.RefRunMain.lean ====
/-
  The reference program's run: @main is the straight line of its operations, so every weakly fair execution
  terminates with each buffer at the fold of the operations' results over the launch contents.

  @main is printed as two windows; each window, with the activation calls' bodies unfolded at their call sites
  and sequencing re-associated, is the straight line of its operations, and the two lines run one after the other
  are their concatenation.
-/
import proofs.«170866_j29832842838651_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := by
  simp only [main_part0, fn_selu.body, fn_elu.body, fn_where.body, fn_where_0.body, fn_selu_1.body, fn_elu_2.body,
    fn_where_3.body, fn_where_4.body, bind_assoc, pure_bind]
  rfl

set_option maxRecDepth 8192 in
set_option maxHeartbeats 4000000 in
theorem main_part1_eq (c : Dev nD) : main_part1 (F := F) c = seq ops1 := by
  simp only [main_part1, fn_selu_5.body, fn_elu_6.body, fn_where_7.body, fn_where_8.body, bind_assoc, pure_bind]
  rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h) | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF0_sub op h,
      List.forall_iff_forall_mem.mp opsF1_sub op h, List.forall_iff_forall_mem.mp opsG_sub op h,
      List.forall_iff_forall_mem.mp opsH_sub op h]

theorem ops_fresh : ∀ op ∈ (ops : List (HloOp τ sig (Elt F))), op.fresh = ∅ := fun op h => by
  simp only [ops, ops0, ops1, List.mem_append] at h
  rcases h with (h | h | h | h | h | h) | h | h | h
  exacts [opsA_fresh op h, opsB_fresh op h, opsC_fresh op h, opsD_fresh op h, opsE_fresh op h, opsF0_fresh op h,
    opsF1_fresh op h, opsG_fresh op h, opsH_fresh op h]

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefValueDefs.lean ====
/-
  The reference's stages as functions of arrays, each the composition of the host operations the program applies.

  The dense stages: a product plus a bias row spread over the rows (the affine layer); two products, a bias and the
  activation (a graph convolution); a product, bias, activation, a second product and bias (the perceptron). The
  activation is spelt as the program spells it: with `s` and `a` the two literals and `y` the operand,
  `s · select (y > 0) y (a · expm1 (select (y > 0) 0 y))`, every scalar spread over the array.
  The data movement: the aggregation of gathered source rows into destination rows at feature widths 4 and 8, the
  pairing of a candidate's two rows out of the stacked node tables, and the final reshape.
-/
import proofs.«170866_j29832842838651_2_alg».proof.ReferenceIdeal
import proofs.«170866_j29832842838651_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The activation over an array of shape `S`, as the program's three nested calls compute it. -/
def seluOf (S : Shape) (h : S_.BroadcastsInDim S (![] : Fin 0 → Fin S.rank)) (y : (⟨S, .f32⟩ : BufTy).Contents (Elt F)) : (⟨S, .f32⟩ : BufTy).Contents (Elt F) :=
  mulf (broadcastInDim S ![] h (constant S_ .f32 0x3F867D5F#32))
    (select (cmpf .ogt y (broadcastInDim S ![] h (constant S_ .f32 0x00000000#32))) y
      (mulf (broadcastInDim S ![] h (id (constant S_ .f32 0x3FD62D7D#32)))
        (Host.expm1 (select (cmpf .ogt y (broadcastInDim S ![] h (constant S_ .f32 0x00000000#32)))
          (broadcastInDim S ![] h (id (constant S_ .f32 0x00000000#32))) y))))

/-- The affine layer over the unconnected nodes. -/
def xuOf (x : (⟨S100000x4, .f32⟩ : BufTy).Contents (Elt F)) (w : (⟨S4x16, .f32⟩ : BufTy).Contents (Elt F)) (b : (⟨S16, .f32⟩ : BufTy).Contents (Elt F)) : (⟨S100000x16, .f32⟩ : BufTy).Contents (Elt F) :=
  addf (Host.dotGeneral dot_S100000x4_S4x16_S100000x16_1_0_0_1_n_n none x w) (broadcastInDim S100000x16 ![0, 1] bcast_S1x16_S100000x16_0_1 (broadcastInDim S1x16 ![1] bcast_S16_S1x16_1 b))

/-- The first graph convolution's dense part. -/
def conv1Of (agg x : (⟨S100000x4, .f32⟩ : BufTy).Contents (Elt F)) (wrel wroot : (⟨S4x8, .f32⟩ : BufTy).Contents (Elt F)) (b : (⟨S8, .f32⟩ : BufTy).Contents (Elt F)) : (⟨S100000x8, .f32⟩ : BufTy).Contents (Elt F) :=
  seluOf S100000x8 bcast_S_S100000x8
    (addf (addf (Host.dotGeneral dot_S100000x4_S4x8_S100000x8_1_0_0_1_n_n none agg wrel) (Host.dotGeneral dot_S100000x4_S4x8_S100000x8_1_0_0_1_n_n none x wroot))
      (broadcastInDim S100000x8 ![0, 1] bcast_S1x8_S100000x8_0_1 (broadcastInDim S1x8 ![1] bcast_S8_S1x8_1 b)))

/-- The second graph convolution's dense part. -/
def conv2Of (agg x : (⟨S100000x8, .f32⟩ : BufTy).Contents (Elt F)) (wrel wroot : (⟨S8x16, .f32⟩ : BufTy).Contents (Elt F)) (b : (⟨S16, .f32⟩ : BufTy).Contents (Elt F)) : (⟨S100000x16, .f32⟩ : BufTy).Contents (Elt F) :=
  seluOf S100000x16 bcast_S_S100000x16
    (addf (addf (Host.dotGeneral dot_S100000x8_S8x16_S100000x16_1_0_0_1_n_n none agg wrel) (Host.dotGeneral dot_S100000x8_S8x16_S100000x16_1_0_0_1_n_n none x wroot))
      (broadcastInDim S100000x16 ![0, 1] bcast_S1x16_S100000x16_0_1 (broadcastInDim S1x16 ![1] bcast_S16_S1x16_1 b)))

/-- The perceptron over the paired candidate rows. -/
def mlpOf (ec : (⟨S2000000x32, .f32⟩ : BufTy).Contents (Elt F)) (w1 : (⟨S32x64, .f32⟩ : BufTy).Contents (Elt F)) (b1 : (⟨S64, .f32⟩ : BufTy).Contents (Elt F)) (w2 : (⟨S64x1, .f32⟩ : BufTy).Contents (Elt F)) (b2 : (⟨S1, .f32⟩ : BufTy).Contents (Elt F)) :
    (⟨S2000000x1, .f32⟩ : BufTy).Contents (Elt F) :=
  addf (Host.dotGeneral dot_S2000000x64_S64x1_S2000000x1_1_0_0_1_n_n none
      (seluOf S2000000x64 bcast_S_S2000000x64
        (addf (Host.dotGeneral dot_S2000000x32_S32x64_S2000000x64_1_0_0_1_n_n none ec w1) (broadcastInDim S2000000x64 ![0, 1] bcast_S1x64_S2000000x64_0_1 (broadcastInDim S1x64 ![1] bcast_S64_S1x64_1 b1))))
      w2)
    (broadcastInDim S2000000x1 ![0, 1] bcast_S1x1_S2000000x1_0_1 (broadcastInDim S1x1 ![1] bcast_S1_S1x1_1 b2))

/-- The aggregation at feature width 4: each edge's source row (negative indices wrapped) gathered, and the gathered
    rows summed into the edges' destination rows of a zero table. -/
def agg4Of (x : (⟨S100000x4, .f32⟩ : BufTy).Contents (Elt F)) (e : (⟨S2x3200000, .i32⟩ : BufTy).Contents (Elt F)) : (⟨S100000x4, .f32⟩ : BufTy).Contents (Elt F) :=
  Host.scatterAdd scatter_S100000x4_S3200000x1_S3200000x4_1_0_0_1
    (broadcastInDim S100000x4 ![] bcast_S_S100000x4 (constant S_ .f32 0x00000000#32))
    (broadcastInDim S3200000x1 ![0] bcast_S3200000_S3200000x1_0 (shapeCast S3200000 (extractStridedSlice S1x3200000 ![1, 0] e slices_S2x3200000_S1x3200000_1_0) shapeCasts_S1x3200000_S3200000))
    (Host.gather gather_S100000x4_S3200000x1_S3200000x4_1_0_n_n_0_1_14 x
      (broadcastInDim S3200000x1 ![0] bcast_S3200000_S3200000x1_0
        (select (cmpi .slt (shapeCast S3200000 (extractStridedSlice S1x3200000 ![0, 0] e slices_S2x3200000_S1x3200000_0_0) shapeCasts_S1x3200000_S3200000) (broadcastInDim S3200000 ![] bcast_S_S3200000 (constantI S_ 32 0#32))) (addi (shapeCast S3200000 (extractStridedSlice S1x3200000 ![0, 0] e slices_S2x3200000_S1x3200000_0_0) shapeCasts_S1x3200000_S3200000) (broadcastInDim S3200000 ![] bcast_S_S3200000 (constantI S_ 32 100000#32))) (shapeCast S3200000 (extractStridedSlice S1x3200000 ![0, 0] e slices_S2x3200000_S1x3200000_0_0) shapeCasts_S1x3200000_S3200000))))

/-- The aggregation at feature width 8. -/
def agg8Of (x : (⟨S100000x8, .f32⟩ : BufTy).Contents (Elt F)) (e : (⟨S2x3200000, .i32⟩ : BufTy).Contents (Elt F)) : (⟨S100000x8, .f32⟩ : BufTy).Contents (Elt F) :=
  Host.scatterAdd scatter_S100000x8_S3200000x1_S3200000x8_1_0_0_1
    (broadcastInDim S100000x8 ![] bcast_S_S100000x8 (constant S_ .f32 0x00000000#32))
    (broadcastInDim S3200000x1 ![0] bcast_S3200000_S3200000x1_0 (shapeCast S3200000 (extractStridedSlice S1x3200000 ![1, 0] e slices_S2x3200000_S1x3200000_1_0) shapeCasts_S1x3200000_S3200000))
    (Host.gather gather_S100000x8_S3200000x1_S3200000x8_1_0_n_n_0_1_18 x
      (broadcastInDim S3200000x1 ![0] bcast_S3200000_S3200000x1_0
        (select (cmpi .slt (shapeCast S3200000 (extractStridedSlice S1x3200000 ![0, 0] e slices_S2x3200000_S1x3200000_0_0) shapeCasts_S1x3200000_S3200000) (broadcastInDim S3200000 ![] bcast_S_S3200000 (constantI S_ 32 0#32))) (addi (shapeCast S3200000 (extractStridedSlice S1x3200000 ![0, 0] e slices_S2x3200000_S1x3200000_0_0) shapeCasts_S1x3200000_S3200000) (broadcastInDim S3200000 ![] bcast_S_S3200000 (constantI S_ 32 100000#32))) (shapeCast S3200000 (extractStridedSlice S1x3200000 ![0, 0] e slices_S2x3200000_S1x3200000_0_0) shapeCasts_S1x3200000_S3200000))))

/-- The two node tables stacked, each candidate's two rows (negative indices wrapped) gathered and laid side by side. -/
def pairOf (xg xu : (⟨S100000x16, .f32⟩ : BufTy).Contents (Elt F)) (cand : (⟨S2000000x2, .i32⟩ : BufTy).Contents (Elt F)) : (⟨S2000000x32, .f32⟩ : BufTy).Contents (Elt F) :=
  concatenate S2000000x32 1
    [⟨S2000000x16, (Host.gather gather_S200000x16_S2000000x1_S2000000x16_1_0_n_n_0_1_116 (concatenate S200000x16 0 [⟨S100000x16, xg⟩, ⟨S100000x16, xu⟩] concatenates_S100000x16_S100000x16_S200000x16_d0)
        (broadcastInDim S2000000x1 ![0] bcast_S2000000_S2000000x1_0
          (select (cmpi .slt (shapeCast S2000000 (extractStridedSlice S2000000x1 ![0, 0] cand slices_S2000000x2_S2000000x1_0_0) shapeCasts_S2000000x1_S2000000) (broadcastInDim S2000000 ![] bcast_S_S2000000 (constantI S_ 32 0#32))) (addi (shapeCast S2000000 (extractStridedSlice S2000000x1 ![0, 0] cand slices_S2000000x2_S2000000x1_0_0) shapeCasts_S2000000x1_S2000000) (broadcastInDim S2000000 ![] bcast_S_S2000000 (constantI S_ 32 200000#32))) (shapeCast S2000000 (extractStridedSlice S2000000x1 ![0, 0] cand slices_S2000000x2_S2000000x1_0_0) shapeCasts_S2000000x1_S2000000))))⟩,
     ⟨S2000000x16, (Host.gather gather_S200000x16_S2000000x1_S2000000x16_1_0_n_n_0_1_116 (concatenate S200000x16 0 [⟨S100000x16, xg⟩, ⟨S100000x16, xu⟩] concatenates_S100000x16_S100000x16_S200000x16_d0)
        (broadcastInDim S2000000x1 ![0] bcast_S2000000_S2000000x1_0
          (select (cmpi .slt (shapeCast S2000000 (extractStridedSlice S2000000x1 ![0, 1] cand slices_S2000000x2_S2000000x1_0_1) shapeCasts_S2000000x1_S2000000) (broadcastInDim S2000000 ![] bcast_S_S2000000 (constantI S_ 32 0#32))) (addi (shapeCast S2000000 (extractStridedSlice S2000000x1 ![0, 1] cand slices_S2000000x2_S2000000x1_0_1) shapeCasts_S2000000x1_S2000000) (broadcastInDim S2000000 ![] bcast_S_S2000000 (constantI S_ 32 200000#32))) (shapeCast S2000000 (extractStridedSlice S2000000x1 ![0, 1] cand slices_S2000000x2_S2000000x1_0_1) shapeCasts_S2000000x1_S2000000))))⟩]
    concatenates_S2000000x16_S2000000x16_S2000000x32_d1

/-- The result's unit axis dropped. -/
def flatOf (y : (⟨S2000000x1, .f32⟩ : BufTy).Contents (Elt F)) : (⟨S2000000, .f32⟩ : BufTy).Contents (Elt F) :=
  shapeCast S2000000 y shapeCasts_S2000000x1_S2000000

end Cert.ReferenceIdeal.RefValue

end
-- ==== Proof.RefRunRead.lean ====
/-
  What the line of operations leaves in each stage's result buffer, as the stage functions of the buffers it reads.

  Each piece of the line, from any contents, leaves its result at the stage's function of the contents it reads;
  a buffer a piece does not write keeps its contents through it. Composing the pieces in order gives the program's
  result as the nesting of the stage functions over the launch contents of the sixteen arguments, and leaves the
  arguments as they were.
-/
import proofs.«170866_j29832842838651_2_alg».proof.Proof.RefRunOps
import proofs.«170866_j29832842838651_2_alg».proof.Proof.RefValueDefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other fold as their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after opsH (after opsG (after opsF1 (after opsF0 (after opsE (after opsD (after opsC (after opsB (after opsA V)))))))) := by
  simp only [ops, ops0, ops1, after_app]

theorem opsA_keep' (V : Valuation τ sig (Elt F)) (r : Ref sig .tc) (h : r ∉ opsA_W) :
    after opsA V (no_index (Proc.devRef .tc r)) = V (Proc.devRef .tc r) := opsA_keep V r h
theorem opsB_keep' (V : Valuation τ sig (Elt F)) (r : Ref sig .tc) (h : r ∉ opsB_W) :
    after opsB V (no_index (Proc.devRef .tc r)) = V (Proc.devRef .tc r) := opsB_keep V r h
theorem opsC_keep' (V : Valuation τ sig (Elt F)) (r : Ref sig .tc) (h : r ∉ opsC_W) :
    after opsC V (no_index (Proc.devRef .tc r)) = V (Proc.devRef .tc r) := opsC_keep V r h
theorem opsD_keep' (V : Valuation τ sig (Elt F)) (r : Ref sig .tc) (h : r ∉ opsD_W) :
    after opsD V (no_index (Proc.devRef .tc r)) = V (Proc.devRef .tc r) := opsD_keep V r h
theorem opsE_keep' (V : Valuation τ sig (Elt F)) (r : Ref sig .tc) (h : r ∉ opsE_W) :
    after opsE V (no_index (Proc.devRef .tc r)) = V (Proc.devRef .tc r) := opsE_keep V r h
theorem opsF0_keep' (V : Valuation τ sig (Elt F)) (r : Ref sig .tc) (h : r ∉ opsF0_W) :
    after opsF0 V (no_index (Proc.devRef .tc r)) = V (Proc.devRef .tc r) := opsF0_keep V r h
theorem opsF1_keep' (V : Valuation τ sig (Elt F)) (r : Ref sig .tc) (h : r ∉ opsF1_W) :
    after opsF1 V (no_index (Proc.devRef .tc r)) = V (Proc.devRef .tc r) := opsF1_keep V r h
theorem opsG_keep' (V : Valuation τ sig (Elt F)) (r : Ref sig .tc) (h : r ∉ opsG_W) :
    after opsG V (no_index (Proc.devRef .tc r)) = V (Proc.devRef .tc r) := opsG_keep V r h
theorem opsH_keep' (V : Valuation τ sig (Elt F)) (r : Ref sig .tc) (h : r ∉ opsH_W) :
    after opsH V (no_index (Proc.devRef .tc r)) = V (Proc.devRef .tc r) := opsH_keep V r h

attribute [local irreducible] Host.gather Host.scatterAdd concatenate extractStridedSlice shapeCast broadcastInDim

set_option maxRecDepth 8192 in
theorem readA (V : Valuation τ sig (Elt F)) : after opsA V (no_index (Proc.devRef .tc main_v3))
    = xuOf (V (main_arg0 : DevRef τ sig)) (V (main_arg10 : DevRef τ sig)) (V (main_arg11 : DevRef τ sig)) := by
  after_results_simp
  rfl

set_option maxRecDepth 8192 in
set_option maxHeartbeats 1000000 in
theorem readB (V : Valuation τ sig (Elt F)) : after opsB V (no_index (Proc.devRef .tc main_v17))
    = agg4Of (V (main_arg1 : DevRef τ sig)) (V (main_arg3 : DevRef τ sig)) := by
  after_results_simp
  rfl

set_option maxRecDepth 8192 in
set_option maxHeartbeats 2000000 in
theorem readC (V : Valuation τ sig (Elt F)) : after opsC V (no_index (Proc.devRef .tc main_v24))
    = conv1Of (V (main_v17 : DevRef τ sig)) (V (main_arg1 : DevRef τ sig)) (V (main_arg4 : DevRef τ sig))
        (V (main_arg5 : DevRef τ sig)) (V (main_arg6 : DevRef τ sig)) := by
  after_results_simp
  rfl

set_option maxRecDepth 8192 in
set_option maxHeartbeats 1000000 in
theorem readD (V : Valuation τ sig (Elt F)) : after opsD V (no_index (Proc.devRef .tc main_v38))
    = agg8Of (V (main_v24 : DevRef τ sig)) (V (main_arg3 : DevRef τ sig)) := by
  after_results_simp
  rfl

set_option maxRecDepth 8192 in
set_option maxHeartbeats 2000000 in
theorem readE (V : Valuation τ sig (Elt F)) : after opsE V (no_index (Proc.devRef .tc main_v45))
    = conv2Of (V (main_v38 : DevRef τ sig)) (V (main_v24 : DevRef τ sig)) (V (main_arg7 : DevRef τ sig))
        (V (main_arg8 : DevRef τ sig)) (V (main_arg9 : DevRef τ sig)) := by
  after_results_simp
  rfl

set_option maxRecDepth 8192 in
set_option maxHeartbeats 2000000 in
theorem readF (V : Valuation τ sig (Elt F)) : after opsF1 (after opsF0 V) (no_index (Proc.devRef .tc main_v65))
    = pairOf (V (main_v45 : DevRef τ sig)) (V (main_v3 : DevRef τ sig)) (V (main_arg2 : DevRef τ sig)) := by
  rw [← after_app]
  simp only [opsF0, opsF1, List.cons_append, List.nil_append]
  after_results_simp
  rfl

set_option maxRecDepth 8192 in
set_option maxHeartbeats 2000000 in
theorem readG (V : Valuation τ sig (Elt F)) : after opsG V (no_index (Proc.devRef .tc main_v74))
    = mlpOf (V (main_v65 : DevRef τ sig)) (V (main_arg12 : DevRef τ sig)) (V (main_arg13 : DevRef τ sig))
        (V (main_arg14 : DevRef τ sig)) (V (main_arg15 : DevRef τ sig)) := by
  after_results_simp
  rfl

theorem readH (V : Valuation τ sig (Elt F)) : after opsH V (no_index (Proc.devRef .tc main_v75))
    = flatOf (V (main_v74 : DevRef τ sig)) := by
  after_results_simp
  rfl

/-- The first convolution's result over the launch contents. -/
def hidOf (V : Valuation τ sig (Elt F)) : (⟨S100000x8, .f32⟩ : BufTy).Contents (Elt F) :=
  conv1Of (agg4Of (V (main_arg1 : DevRef τ sig)) (V (main_arg3 : DevRef τ sig))) (V (main_arg1 : DevRef τ sig))
    (V (main_arg4 : DevRef τ sig)) (V (main_arg5 : DevRef τ sig)) (V (main_arg6 : DevRef τ sig))

/-- The program's result over the launch contents: the stage functions nested. -/
def outOf (V : Valuation τ sig (Elt F)) : (⟨S2000000, .f32⟩ : BufTy).Contents (Elt F) :=
  flatOf (mlpOf
    (pairOf
      (conv2Of (agg8Of (hidOf V) (V (main_arg3 : DevRef τ sig))) (hidOf V) (V (main_arg7 : DevRef τ sig))
        (V (main_arg8 : DevRef τ sig)) (V (main_arg9 : DevRef τ sig)))
      (xuOf (V (main_arg0 : DevRef τ sig)) (V (main_arg10 : DevRef τ sig)) (V (main_arg11 : DevRef τ sig)))
      (V (main_arg2 : DevRef τ sig)))
    (V (main_arg12 : DevRef τ sig)) (V (main_arg13 : DevRef τ sig)) (V (main_arg14 : DevRef τ sig))
    (V (main_arg15 : DevRef τ sig)))

set_option maxRecDepth 8192 in
set_option maxHeartbeats 2000000 in
theorem read_out (V : Valuation τ sig (Elt F)) : after ops V (main_v75 : DevRef τ sig) = outOf V := by
  simp (disch := decide) only [after_ops, readA, readB, readC, readD, readE, readF, readG, readH, opsA_keep', opsB_keep', opsC_keep', opsD_keep', opsE_keep', opsF0_keep', opsF1_keep', opsG_keep', opsH_keep']
  rfl

theorem keep_arg0 (V : Valuation τ sig (Elt F)) : after ops V (main_arg0 : DevRef τ sig) = V (main_arg0 : DevRef τ sig) := by
  simp (disch := decide) only [after_ops, opsA_keep', opsB_keep', opsC_keep', opsD_keep', opsE_keep', opsF0_keep', opsF1_keep', opsG_keep', opsH_keep']
theorem keep_arg1 (V : Valuation τ sig (Elt F)) : after ops V (main_arg1 : DevRef τ sig) = V (main_arg1 : DevRef τ sig) := by
  simp (disch := decide) only [after_ops, opsA_keep', opsB_keep', opsC_keep', opsD_keep', opsE_keep', opsF0_keep', opsF1_keep', opsG_keep', opsH_keep']
theorem keep_arg2 (V : Valuation τ sig (Elt F)) : after ops V (main_arg2 : DevRef τ sig) = V (main_arg2 : DevRef τ sig) := by
  simp (disch := decide) only [after_ops, opsA_keep', opsB_keep', opsC_keep', opsD_keep', opsE_keep', opsF0_keep', opsF1_keep', opsG_keep', opsH_keep']
theorem keep_arg3 (V : Valuation τ sig (Elt F)) : after ops V (main_arg3 : DevRef τ sig) = V (main_arg3 : DevRef τ sig) := by
  simp (disch := decide) only [after_ops, opsA_keep', opsB_keep', opsC_keep', opsD_keep', opsE_keep', opsF0_keep', opsF1_keep', opsG_keep', opsH_keep']
theorem keep_arg4 (V : Valuation τ sig (Elt F)) : after ops V (main_arg4 : DevRef τ sig) = V (main_arg4 : DevRef τ sig) := by
  simp (disch := decide) only [after_ops, opsA_keep', opsB_keep', opsC_keep', opsD_keep', opsE_keep', opsF0_keep', opsF1_keep', opsG_keep', opsH_keep']
theorem keep_arg5 (V : Valuation τ sig (Elt F)) : after ops V (main_arg5 : DevRef τ sig) = V (main_arg5 : DevRef τ sig) := by
  simp (disch := decide) only [after_ops, opsA_keep', opsB_keep', opsC_keep', opsD_keep', opsE_keep', opsF0_keep', opsF1_keep', opsG_keep', opsH_keep']
theorem keep_arg6 (V : Valuation τ sig (Elt F)) : after ops V (main_arg6 : DevRef τ sig) = V (main_arg6 : DevRef τ sig) := by
  simp (disch := decide) only [after_ops, opsA_keep', opsB_keep', opsC_keep', opsD_keep', opsE_keep', opsF0_keep', opsF1_keep', opsG_keep', opsH_keep']
theorem keep_arg7 (V : Valuation τ sig (Elt F)) : after ops V (main_arg7 : DevRef τ sig) = V (main_arg7 : DevRef τ sig) := by
  simp (disch := decide) only [after_ops, opsA_keep', opsB_keep', opsC_keep', opsD_keep', opsE_keep', opsF0_keep', opsF1_keep', opsG_keep', opsH_keep']
theorem keep_arg8 (V : Valuation τ sig (Elt F)) : after ops V (main_arg8 : DevRef τ sig) = V (main_arg8 : DevRef τ sig) := by
  simp (disch := decide) only [after_ops, opsA_keep', opsB_keep', opsC_keep', opsD_keep', opsE_keep', opsF0_keep', opsF1_keep', opsG_keep', opsH_keep']
theorem keep_arg9 (V : Valuation τ sig (Elt F)) : after ops V (main_arg9 : DevRef τ sig) = V (main_arg9 : DevRef τ sig) := by
  simp (disch := decide) only [after_ops, opsA_keep', opsB_keep', opsC_keep', opsD_keep', opsE_keep', opsF0_keep', opsF1_keep', opsG_keep', opsH_keep']
theorem keep_arg10 (V : Valuation τ sig (Elt F)) : after ops V (main_arg10 : DevRef τ sig) = V (main_arg10 : DevRef τ sig) := by
  simp (disch := decide) only [after_ops, opsA_keep', opsB_keep', opsC_keep', opsD_keep', opsE_keep', opsF0_keep', opsF1_keep', opsG_keep', opsH_keep']
theorem keep_arg11 (V : Valuation τ sig (Elt F)) : after ops V (main_arg11 : DevRef τ sig) = V (main_arg11 : DevRef τ sig) := by
  simp (disch := decide) only [after_ops, opsA_keep', opsB_keep', opsC_keep', opsD_keep', opsE_keep', opsF0_keep', opsF1_keep', opsG_keep', opsH_keep']
theorem keep_arg12 (V : Valuation τ sig (Elt F)) : after ops V (main_arg12 : DevRef τ sig) = V (main_arg12 : DevRef τ sig) := by
  simp (disch := decide) only [after_ops, opsA_keep', opsB_keep', opsC_keep', opsD_keep', opsE_keep', opsF0_keep', opsF1_keep', opsG_keep', opsH_keep']
theorem keep_arg13 (V : Valuation τ sig (Elt F)) : after ops V (main_arg13 : DevRef τ sig) = V (main_arg13 : DevRef τ sig) := by
  simp (disch := decide) only [after_ops, opsA_keep', opsB_keep', opsC_keep', opsD_keep', opsE_keep', opsF0_keep', opsF1_keep', opsG_keep', opsH_keep']
theorem keep_arg14 (V : Valuation τ sig (Elt F)) : after ops V (main_arg14 : DevRef τ sig) = V (main_arg14 : DevRef τ sig) := by
  simp (disch := decide) only [after_ops, opsA_keep', opsB_keep', opsC_keep', opsD_keep', opsE_keep', opsF0_keep', opsF1_keep', opsG_keep', opsH_keep']
theorem keep_arg15 (V : Valuation τ sig (Elt F)) : after ops V (main_arg15 : DevRef τ sig) = V (main_arg15 : DevRef τ sig) := by
  simp (disch := decide) only [after_ops, opsA_keep', opsB_keep', opsC_keep', opsD_keep', opsE_keep', opsF0_keep', opsF1_keep', opsG_keep', opsH_keep']

end Cert.ReferenceIdeal.RefValue

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefValueStages.lean ====
/-
  The reference's dense stages are the textbook sums.

  On the extended reals the host's product of an `M × K` by a `K × N` matrix is, entry by entry, the sum over the
  contracted coordinate; a bias vector spread over the rows adds its entry of the column; the activation the program
  spells with two selects on `y > 0` is, entry by entry, `s · y` for positive `y` and `s · a · (eʸ − 1)` otherwise —
  in the other branch the inner select hands the exponential `y` itself, in the positive branch its value is not read.
  So the affine layer, the two graph convolutions and the perceptron are the specification's `affine`, `conv`, `mlp`.
-/
import proofs.«170866_j29832842838651_2_alg».proof.Proof.RefValueDefs
import proofs.«170866_j29832842838651_2_alg».proof.Proof.Spec
import proofs.«170866_j29832842838651_2_alg».proof.Proof.LibPlainDot
import proofs.«170866_j29832842838651_2_alg».proof.Proof.LibHostRead
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The comparison `y > 0` selecting between two values is the `if` on `0 < y`. -/
theorem select_gt_zero (y a b : EReal) :
    Scalar.select (FloatOps.cmpf (F := Ideal) (φ := .f32) .ogt y 0) a b = if 0 < y then a else b := by
  show Scalar.select (BitVec.ofBool (decide (0 < y))) a b = _
  by_cases hy : 0 < y
  · rw [if_pos hy, decide_eq_true hy]; exact select_one a b
  · rw [if_neg hy, decide_eq_false hy]; exact select_zero a b

/-- The activation at an entry. -/
theorem seluOf_apply (S : Shape) (h : S_.BroadcastsInDim S (![] : Fin 0 → Fin S.rank)) (y : FVec Ideal S .f32) (i : S.Idx) :
    seluOf (F := Ideal) S h y i = Gnn.selu (y i) := by
  have hz : broadcastInDim S ![] h (constant (F := Ideal) S_ .f32 0x00000000#32) i = 0 :=
    (Hmu.Lib.bcast_const_apply _ h i).trans Ideal.ofBits_zero_f32
  have hs : broadcastInDim S ![] h (constant (F := Ideal) S_ .f32 0x3F867D5F#32) i = Ideal.ofBits .f32 0x3F867D5F#32 :=
    Hmu.Lib.bcast_const_apply _ h i
  have ha : broadcastInDim S ![] h (constant (F := Ideal) S_ .f32 0x3FD62D7D#32) i = Ideal.ofBits .f32 0x3FD62D7D#32 :=
    Hmu.Lib.bcast_const_apply _ h i
  show (broadcastInDim S ![] h (constant (F := Ideal) S_ .f32 0x3F867D5F#32) i)
      * Scalar.select (FloatOps.cmpf (F := Ideal) (φ := .f32) .ogt (y i) (broadcastInDim S ![] h (constant (F := Ideal) S_ .f32 0x00000000#32) i))
          (y i)
          ((broadcastInDim S ![] h (constant (F := Ideal) S_ .f32 0x3FD62D7D#32) i)
            * (Ideal.exp (Scalar.select (FloatOps.cmpf (F := Ideal) (φ := .f32) .ogt (y i) (broadcastInDim S ![] h (constant (F := Ideal) S_ .f32 0x00000000#32) i))
                (broadcastInDim S ![] h (constant (F := Ideal) S_ .f32 0x00000000#32) i) (y i)) - 1))
      = Gnn.selu (y i)
  rw [hz, hs, ha, select_gt_zero, select_gt_zero]
  unfold Gnn.selu
  by_cases hy : 0 < y i
  · rw [if_pos hy, if_pos hy]
  · rw [if_neg hy, if_neg hy, if_neg hy]

variable {M K N H : ℕ}

/-- The host's product read at an entry. -/
theorem dot_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (p : Fin M) (q : Fin N) :
    Host.dotGeneral (F := Ideal) d none x w (ix2 p q) = Gnn.dotAt x w p q := by
  subst hd
  exact Gcn.Lib.plain_dotGeneral_apply x w none .single p q

/-- A product plus a bias row spread over the rows, at an entry. -/
theorem affine_apply (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) (p : Fin M) (q : Fin N) :
    addf (Host.dotGeneral (F := Ideal) d none x w) (broadcastInDim ⟨2, ![M, N]⟩ ![0, 1] h2 (broadcastInDim ⟨2, ![1, N]⟩ ![1] h1 b)) (ix2 p q)
      = Gnn.affineAt x w b p q := by
  rw [addf_apply, dot_apply d hd, Hmu.Lib.bcastCols_apply]
  rfl

/-- The affine layer is the specification's. -/
theorem affine_eq (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    addf (Host.dotGeneral (F := Ideal) d none x w) (broadcastInDim ⟨2, ![M, N]⟩ ![0, 1] h2 (broadcastInDim ⟨2, ![1, N]⟩ ![1] h1 b))
      = Gnn.affine x w b := by
  funext i
  obtain ⟨p, q, rfl⟩ : ∃ p q, i = ix2 p q := ⟨i 0, i 1, eq_ix2 i⟩
  exact affine_apply d hd h1 h2 x w b p q

/-- Two products, a bias and the activation: the specification's graph convolution. -/
theorem conv_eq (d : DotDims ⟨2, ![M, K]⟩ ⟨2, ![K, N]⟩ ⟨2, ![M, N]⟩) (hd : d = DotDims.plain M K N)
    (h0 : S_.BroadcastsInDim ⟨2, ![M, N]⟩ (![] : Fin 0 → Fin 2))
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (agg x : FVec Ideal ⟨2, ![M, K]⟩ .f32) (wrel wroot : FVec Ideal ⟨2, ![K, N]⟩ .f32) (b : FVec Ideal ⟨1, ![N]⟩ .f32) :
    seluOf (F := Ideal) ⟨2, ![M, N]⟩ h0
        (addf (addf (Host.dotGeneral (F := Ideal) d none agg wrel) (Host.dotGeneral (F := Ideal) d none x wroot))
          (broadcastInDim ⟨2, ![M, N]⟩ ![0, 1] h2 (broadcastInDim ⟨2, ![1, N]⟩ ![1] h1 b)))
      = Gnn.conv agg x wrel wroot b := by
  funext i
  obtain ⟨p, q, rfl⟩ : ∃ p q, i = ix2 p q := ⟨i 0, i 1, eq_ix2 i⟩
  rw [seluOf_apply, addf_apply, addf_apply, dot_apply d hd, dot_apply d hd, Hmu.Lib.bcastCols_apply]
  rfl

/-- A product, bias, activation, a second product and bias: the specification's perceptron. -/
theorem mlp_eq (d1 : DotDims ⟨2, ![M, K]⟩ ⟨2, ![K, H]⟩ ⟨2, ![M, H]⟩) (hd1 : d1 = DotDims.plain M K H)
    (d2 : DotDims ⟨2, ![M, H]⟩ ⟨2, ![H, N]⟩ ⟨2, ![M, N]⟩) (hd2 : d2 = DotDims.plain M H N)
    (h0 : S_.BroadcastsInDim ⟨2, ![M, H]⟩ (![] : Fin 0 → Fin 2))
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (g1 : (⟨1, ![N]⟩ : Shape).BroadcastsInDim ⟨2, ![1, N]⟩ (![1] : Fin 1 → Fin 2))
    (g2 : (⟨2, ![1, N]⟩ : Shape).BroadcastsInDim ⟨2, ![M, N]⟩ (![0, 1] : Fin 2 → Fin 2))
    (ec : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) :
    addf (Host.dotGeneral (F := Ideal) (φ₁ := .f32) d2 none
        (seluOf (F := Ideal) ⟨2, ![M, H]⟩ h0
          (addf (Host.dotGeneral (F := Ideal) d1 none ec w1) (broadcastInDim ⟨2, ![M, H]⟩ ![0, 1] h2 (broadcastInDim ⟨2, ![1, H]⟩ ![1] h1 b1))))
        w2)
      (broadcastInDim ⟨2, ![M, N]⟩ ![0, 1] g2 (broadcastInDim ⟨2, ![1, N]⟩ ![1] g1 b2))
      = Gnn.mlp ec w1 b1 w2 b2 := by
  funext i
  obtain ⟨p, q, rfl⟩ : ∃ p q, i = ix2 p q := ⟨i 0, i 1, eq_ix2 i⟩
  rw [addf_apply, dot_apply d2 hd2, Hmu.Lib.bcastCols_apply]
  show (∑ j : Fin H, _ * w2 (ix2 j q)) + b2 (ix1 q) = (∑ j : Fin H, Gnn.selu (Gnn.affineAt ec w1 b1 p j) * w2 (ix2 j q)) + b2 (ix1 q)
  refine congrArg (· + b2 (ix1 q)) (Finset.sum_congr rfl fun j _ => ?_)
  rw [seluOf_apply, affine_apply d1 hd1 h1 h2]

theorem xuOf_eq (x : Gnn.Mat 100000 4) (w : Gnn.Mat 4 16) (b : Gnn.Row 16) :
    xuOf (F := Ideal) x w b = Gnn.affine x w b :=
  affine_eq _ rfl _ _ x w b

theorem conv1Of_eq (agg x : Gnn.Mat 100000 4) (wrel wroot : Gnn.Mat 4 8) (b : Gnn.Row 8) :
    conv1Of (F := Ideal) agg x wrel wroot b = Gnn.conv agg x wrel wroot b :=
  conv_eq _ rfl _ _ _ agg x wrel wroot b

theorem conv2Of_eq (agg x : Gnn.Mat 100000 8) (wrel wroot : Gnn.Mat 8 16) (b : Gnn.Row 16) :
    conv2Of (F := Ideal) agg x wrel wroot b = Gnn.conv agg x wrel wroot b :=
  conv_eq _ rfl _ _ _ agg x wrel wroot b

theorem mlpOf_eq (ec : Gnn.Mat 2000000 32) (w1 : Gnn.Mat 32 64) (b1 : Gnn.Row 64) (w2 : Gnn.Mat 64 1) (b2 : Gnn.Row 1) :
    mlpOf (F := Ideal) ec w1 b1 w2 b2 = Gnn.mlp ec w1 b1 w2 b2 :=
  mlp_eq _ rfl _ rfl _ _ _ _ _ ec w1 b1 w2 b2

end Cert.ReferenceIdeal.RefValue

end
-- ==== Proof.RefValue.lean ====
/-
  The reference program's run and value: every weakly fair execution of @main terminates with the result buffer at
  the specification's `Gnn.out` of the sixteen argument arrays, for the reference's own spelling `glue` of the data
  movement, and with the arguments unchanged.

  The run leaves the result at the nesting of the stage functions over the launch contents; the dense stages are the
  specification's affine layer, graph convolutions and perceptron; the data-movement stages are `glue`'s four
  fields by definition.
-/
import proofs.«170866_j29832842838651_2_alg».proof.Proof.RefRunMain
import proofs.«170866_j29832842838651_2_alg».proof.Proof.RefRunRead
import proofs.«170866_j29832842838651_2_alg».proof.Proof.RefValueStages

noncomputable section

namespace Cert.ReferenceIdeal.RefValue

open Idealize.ShloMosaic Idealize.SL.Sem Cert.ReferenceIdeal
open Cert.ReferenceIdeal.Gen Idealize.ShloMosaic.TcCoe Idealize.ShloMosaic.StableHlo

/-- The nesting of the stage functions is the specification's result, for any spelling of the data movement that
    agrees with the reference's four data-movement stages. -/
theorem out_eq (g : Gnn.Glue)
    (h4 : ∀ (x : Gnn.Mat 100000 4) (e : Gnn.IMat 2 3200000), g.agg4 x e = agg4Of (F := Ideal) x e)
    (h8 : ∀ (x : Gnn.Mat 100000 8) (e : Gnn.IMat 2 3200000), g.agg8 x e = agg8Of (F := Ideal) x e)
    (hp : ∀ (xg xu : Gnn.Mat 100000 16) (cand : Gnn.IMat 2000000 2), g.pair xg xu cand = pairOf (F := Ideal) xg xu cand)
    (hf : ∀ y : Gnn.Mat 2000000 1, g.flat y = flatOf (F := Ideal) y)
    (V : Valuation τ sig (Elt Ideal)) :
    outOf (F := Ideal) V
      = Gnn.out g (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  simp only [outOf, hidOf, Gnn.out, xuOf_eq, conv1Of_eq, conv2Of_eq, mlpOf_eq, h4, h8, hp, hf]

/-- The reference's spelling of the shared data movement. -/
def glue : Gnn.Glue :=
  { agg4 := fun x e =>
      Host.scatterAdd (F := Ideal) scatter_S100000x4_S3200000x1_S3200000x4_1_0_0_1
        (broadcastInDim S100000x4 ![] bcast_S_S100000x4 (constant (F := Ideal) S_ .f32 0x00000000#32))
        (broadcastInDim S3200000x1 ![0] bcast_S3200000_S3200000x1_0 (shapeCast S3200000 (extractStridedSlice S1x3200000 ![1, 0] e slices_S2x3200000_S1x3200000_1_0) shapeCasts_S1x3200000_S3200000))
        (Host.gather gather_S100000x4_S3200000x1_S3200000x4_1_0_n_n_0_1_14 x
          (broadcastInDim S3200000x1 ![0] bcast_S3200000_S3200000x1_0
            (select (cmpi .slt (shapeCast S3200000 (extractStridedSlice S1x3200000 ![0, 0] e slices_S2x3200000_S1x3200000_0_0) shapeCasts_S1x3200000_S3200000) (broadcastInDim S3200000 ![] bcast_S_S3200000 (constantI S_ 32 0#32))) (addi (shapeCast S3200000 (extractStridedSlice S1x3200000 ![0, 0] e slices_S2x3200000_S1x3200000_0_0) shapeCasts_S1x3200000_S3200000) (broadcastInDim S3200000 ![] bcast_S_S3200000 (constantI S_ 32 100000#32))) (shapeCast S3200000 (extractStridedSlice S1x3200000 ![0, 0] e slices_S2x3200000_S1x3200000_0_0) shapeCasts_S1x3200000_S3200000))))
    agg8 := fun x e =>
      Host.scatterAdd (F := Ideal) scatter_S100000x8_S3200000x1_S3200000x8_1_0_0_1
        (broadcastInDim S100000x8 ![] bcast_S_S100000x8 (constant (F := Ideal) S_ .f32 0x00000000#32))
        (broadcastInDim S3200000x1 ![0] bcast_S3200000_S3200000x1_0 (shapeCast S3200000 (extractStridedSlice S1x3200000 ![1, 0] e slices_S2x3200000_S1x3200000_1_0) shapeCasts_S1x3200000_S3200000))
        (Host.gather gather_S100000x8_S3200000x1_S3200000x8_1_0_n_n_0_1_18 x
          (broadcastInDim S3200000x1 ![0] bcast_S3200000_S3200000x1_0
            (select (cmpi .slt (shapeCast S3200000 (extractStridedSlice S1x3200000 ![0, 0] e slices_S2x3200000_S1x3200000_0_0) shapeCasts_S1x3200000_S3200000) (broadcastInDim S3200000 ![] bcast_S_S3200000 (constantI S_ 32 0#32))) (addi (shapeCast S3200000 (extractStridedSlice S1x3200000 ![0, 0] e slices_S2x3200000_S1x3200000_0_0) shapeCasts_S1x3200000_S3200000) (broadcastInDim S3200000 ![] bcast_S_S3200000 (constantI S_ 32 100000#32))) (shapeCast S3200000 (extractStridedSlice S1x3200000 ![0, 0] e slices_S2x3200000_S1x3200000_0_0) shapeCasts_S1x3200000_S3200000))))
    pair := fun xg xu cand =>
      concatenate S2000000x32 1
        [⟨S2000000x16, (Host.gather gather_S200000x16_S2000000x1_S2000000x16_1_0_n_n_0_1_116 (concatenate S200000x16 0 [⟨S100000x16, xg⟩, ⟨S100000x16, xu⟩] concatenates_S100000x16_S100000x16_S200000x16_d0)
            (broadcastInDim S2000000x1 ![0] bcast_S2000000_S2000000x1_0
              (select (cmpi .slt (shapeCast S2000000 (extractStridedSlice S2000000x1 ![0, 0] cand slices_S2000000x2_S2000000x1_0_0) shapeCasts_S2000000x1_S2000000) (broadcastInDim S2000000 ![] bcast_S_S2000000 (constantI S_ 32 0#32))) (addi (shapeCast S2000000 (extractStridedSlice S2000000x1 ![0, 0] cand slices_S2000000x2_S2000000x1_0_0) shapeCasts_S2000000x1_S2000000) (broadcastInDim S2000000 ![] bcast_S_S2000000 (constantI S_ 32 200000#32))) (shapeCast S2000000 (extractStridedSlice S2000000x1 ![0, 0] cand slices_S2000000x2_S2000000x1_0_0) shapeCasts_S2000000x1_S2000000))))⟩,
         ⟨S2000000x16, (Host.gather gather_S200000x16_S2000000x1_S2000000x16_1_0_n_n_0_1_116 (concatenate S200000x16 0 [⟨S100000x16, xg⟩, ⟨S100000x16, xu⟩] concatenates_S100000x16_S100000x16_S200000x16_d0)
            (broadcastInDim S2000000x1 ![0] bcast_S2000000_S2000000x1_0
              (select (cmpi .slt (shapeCast S2000000 (extractStridedSlice S2000000x1 ![0, 1] cand slices_S2000000x2_S2000000x1_0_1) shapeCasts_S2000000x1_S2000000) (broadcastInDim S2000000 ![] bcast_S_S2000000 (constantI S_ 32 0#32))) (addi (shapeCast S2000000 (extractStridedSlice S2000000x1 ![0, 1] cand slices_S2000000x2_S2000000x1_0_1) shapeCasts_S2000000x1_S2000000) (broadcastInDim S2000000 ![] bcast_S_S2000000 (constantI S_ 32 200000#32))) (shapeCast S2000000 (extractStridedSlice S2000000x1 ![0, 1] cand slices_S2000000x2_S2000000x1_0_1) shapeCasts_S2000000x1_S2000000))))⟩]
        concatenates_S2000000x16_S2000000x16_S2000000x32_d1
    flat := fun y =>
      shapeCast S2000000 y shapeCasts_S2000000x1_S2000000 }

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75)
        = Gnn.out glue (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
      ⟨(h c main_v75).trans ((read_out (launchContents m c)).trans
          (out_eq glue (fun _ _ => rfl) (fun _ _ => rfl) (fun _ _ _ => rfl) (fun _ => rfl) (launchContents m c))),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c)),
       (h c main_arg6).trans (keep_arg6 (launchContents m c)),
       (h c main_arg7).trans (keep_arg7 (launchContents m c)),
       (h c main_arg8).trans (keep_arg8 (launchContents m c)),
       (h c main_arg9).trans (keep_arg9 (launchContents m c)),
       (h c main_arg10).trans (keep_arg10 (launchContents m c)),
       (h c main_arg11).trans (keep_arg11 (launchContents m c)),
       (h c main_arg12).trans (keep_arg12 (launchContents m c)),
       (h c main_arg13).trans (keep_arg13 (launchContents m c)),
       (h c main_arg14).trans (keep_arg14 (launchContents m c)),
       (h c main_arg15).trans (keep_arg15 (launchContents m c))⟩)
    (run_main m ρ)

end Cert.ReferenceIdeal.RefValue

end
-- ==== Proof.lean ====
/-
  A graph network that scores candidate edges: two graph convolution layers over the connected nodes, one affine layer
  over the unconnected ones, and a two-layer perceptron over each candidate's pair of node rows. The kernel program
  computes the four dense stages in four tiled launches, with the gathers, the edge-list sums and the stacking done by
  host operations around them; the reference computes everything with host operations.

  On the extended reals both results are ONE function of the sixteen argument arrays, `Gnn.out g` (Proof/Spec.lean), the
  data movement entering as four functions `g` that are never opened:

  * each launch leaves in its output array the specification's dense stage of the arrays it finds — the body's stored
    value at an entry is the textbook sum (a change of float format is the identity, the matrix unit accumulating into
    zero is the plain contraction) passed through `s · (y if 0 < y, else a · (eʸ − 1))`, and the row blocks tile the
    array (Proof/KernelDense.lean, Proof/KernelRegion0 … 3.lean);
  * the kernel's run ends with every buffer at the fold of these through @main's eight segments, and the fold read at the
    result is `Gnn.out` of the arguments for the kernel program's spelling of the data movement (Proof/KernelRun.lean,
    Proof/KernelValue.lean);
  * the reference's run ends with its result at `Gnn.out` of the arguments for its own spelling: its activation is
    `s · select (y > 0) y (a · expm1 (select (y > 0) 0 y))`, and `expm1 y = eʸ − 1` while the inner selection only differs
    from `y` where the outer one discards it (Proof/RefRunOps … RefValue.lean);
  * the two spellings of the data movement are the same operations on the same dimension records, so they are equal.

  No step uses that the inputs are finite: every law used holds at the infinities too. The kernel's idealization
  rewrote no operation, so it is preserved trivially. The three programs' frames are the runs themselves with the result
  dropped.
-/
import proofs.«170866_j29832842838651_2_alg».proof.Defs
import proofs.«170866_j29832842838651_2_alg».proof.Proof.PatchedFrameKernel
import proofs.«170866_j29832842838651_2_alg».proof.Proof.PatchedFrameKernelIdeal
import proofs.«170866_j29832842838651_2_alg».proof.Proof.KernelRun
import proofs.«170866_j29832842838651_2_alg».proof.Proof.KernelValue
import proofs.«170866_j29832842838651_2_alg».proof.Proof.RefValue
import proofs.«170866_j29832842838651_2_alg».proof.Proof.Gen.Kernel
import proofs.«170866_j29832842838651_2_alg».proof.Proof.Gen.KernelIdeal
import proofs.«170866_j29832842838651_2_alg».proof.Proof.Gen.ReferenceIdeal
import proofs.«170866_j29832842838651_2_alg».proof.Proof.Gen.Pre_finite_inputs
import Idealize.ShloMosaic.Adequacy
import Idealize.ShloMosaic.Init

noncomputable section

namespace Cert.Proof

open Idealize.ShloMosaic Idealize.SL.Sem

/-- The two programs spell the data movement with the same operations over equal dimension records. -/
theorem glue_eq : Cert.KernelIdeal.Value.glue = Cert.ReferenceIdeal.RefValue.glue := rfl

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end with the result at `Gnn.out` of the arguments, for spellings of the data movement that
    are equal, from memories that agree on the arguments. -/
theorem algebraic : Cert.algebraic_KernelIdeal_ReferenceIdeal := by
  intro m ρ m' ρ' _ hagree
  refine ⟨fun c => Gnn.out Cert.KernelIdeal.Value.glue
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Value.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15, glue_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
